-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x3 .f32) (main_arg1 : IVec S2x3200000 32) (main_arg2 : FVec F S3x16 .f32) (main_arg3 : FVec F S16 .f32) (main_arg4 : FVec F S16x1 .f32) (main_arg5 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x3 : Shape := ⟨2, ![10000, 3]⟩
abbrev S10000x16 : Shape := ⟨2, ![10000, 16]⟩
abbrev S3300000x16 : Shape := ⟨2, ![3300000, 16]⟩
abbrev S4000x16 : Shape := ⟨2, ![4000, 16]⟩
abbrev S4000x1 : Shape := ⟨2, ![4000, 1]⟩
abbrev S1x16 : Shape := ⟨2, ![1, 16]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 84
  | .vmem => 32
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S3300000x1, .f32⟩
  | .hbm, ⟨50, _⟩ => ⟨S100000x16, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S_, .f32⟩
  | .hbm, ⟨62, _⟩ => ⟨S100000x16, .f32⟩
  | .hbm, ⟨63, _⟩ => ⟨S3300000x1, .i32⟩
  | .hbm, ⟨64, _⟩ => ⟨S100000x16, .f32⟩
  | .hbm, ⟨65, _⟩ => ⟨S1x16, .f32⟩
  | .hbm, ⟨66, _⟩ => ⟨S100000x16, .f32⟩
  | .hbm, ⟨67, _⟩ => ⟨S100000x1, .f32⟩
  | .hbm, ⟨68, _⟩ => ⟨S_, .i32⟩
  | .hbm, ⟨69, _⟩ => ⟨S3300000, .i32⟩
  | .hbm, ⟨70, _⟩ => ⟨S3300000, .i1⟩
  | .hbm, ⟨71, _⟩ => ⟨S_, .i32⟩
  | .hbm, ⟨72, _⟩ => ⟨S3300000, .i32⟩
  | .hbm, ⟨73, _⟩ => ⟨S3300000, .i32⟩
  | .hbm, ⟨74, _⟩ => ⟨S3300000, .i32⟩
  | .hbm, ⟨75, _⟩ => ⟨S3300000x1, .i32⟩
  | .hbm, ⟨76, _⟩ => ⟨S3300000x1, .f32⟩
  | .hbm, ⟨77, _⟩ => ⟨S3300000x1, .f32⟩
  | .hbm, ⟨78, _⟩ => ⟨S_, .f32⟩
  | .hbm, ⟨79, _⟩ => ⟨S100000x1, .f32⟩
  | .hbm, ⟨80, _⟩ => ⟨S3300000x1, .i32⟩
  | .hbm, ⟨81, _⟩ => ⟨S100000x1, .f32⟩
  | .hbm, ⟨82, _⟩ => ⟨S1x1, .f32⟩
  | .hbm, ⟨83, _⟩ => ⟨S100000x1, .f32⟩
  | .local _ .vmem, ⟨0, _⟩ => ⟨S10000x3, .f32⟩
  | .local _ .vmem, ⟨1, _⟩ => ⟨S10000x3, .f32⟩
  | .local _ .vmem, ⟨2, _⟩ => ⟨S3x16, .f32⟩
  | .local _ .vmem, ⟨3, _⟩ => ⟨S10000x16, .f32⟩
  | .local _ .vmem, ⟨4, _⟩ => ⟨S10000x16, .f32⟩
  | .local _ .vmem, ⟨5, _⟩ => ⟨S4000x16, .f32⟩
  | .local _ .vmem, ⟨6, _⟩ => ⟨S4000x16, .f32⟩
  | .local _ .vmem, ⟨7, _⟩ => ⟨S4000x1, .f32⟩
  | .local _ .vmem, ⟨8, _⟩ => ⟨S4000x1, .f32⟩
  | .local _ .vmem, ⟨9, _⟩ => ⟨S4000x16, .f32⟩
  | .local _ .vmem, ⟨10, _⟩ => ⟨S4000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S10000x16, .f32⟩
  | .local _ .vmem, ⟨18, _⟩ => ⟨S16x1, .f32⟩
  | .local _ .vmem, ⟨19, _⟩ => ⟨S10000x1, .f32⟩
  | .local _ .vmem, ⟨20, _⟩ => ⟨S10000x1, .f32⟩
  | .local _ .vmem, ⟨21, _⟩ => ⟨S4000x1, .f32⟩
  | .local _ .vmem, ⟨22, _⟩ => ⟨S4000x1, .f32⟩
  | .local _ .vmem, ⟨23, _⟩ => ⟨S4000x1, .f32⟩
  | .local _ .vmem, ⟨24, _⟩ => ⟨S4000x1, .f32⟩
  | .local _ .vmem, ⟨25, _⟩ => ⟨S4000x1, .f32⟩
  | .local _ .vmem, ⟨26, _⟩ => ⟨S4000x1, .f32⟩
  | .local _ .vmem, ⟨27, _⟩ => ⟨S10000x1, .f32⟩
  | .local _ .vmem, ⟨28, _⟩ => ⟨S10000x1, .f32⟩
  | .local _ .vmem, ⟨29, _⟩ => ⟨S1x1, .f32⟩
  | .local _ .vmem, ⟨30, _⟩ => ⟨S10000x1, .f32⟩
  | .local _ .vmem, ⟨31, _⟩ => ⟨S10000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![825], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![825], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S3300000_S3300000x1 : S3300000.ShapeCasts S3300000x1
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S10000x16_S10000x16_0_0 : ∀ a, (![0, 0] : Fin 2 → Nat) a + S10000x16.size a ≤ S10000x16.size a
  h_S10000x16 : 0 < S10000x16.numel
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x3_S3x16_S10000x16_1_0_0_1_n_n_wf : DotDims.WF S10000x3 S3x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x1_S10000x1_1_0_0_1_n_n_wf : DotDims.WF S10000x16 S16x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S3300000x16.size a
  hwx1_0 : ∀ i : grid1.Coords, EltTy.bits .f32 = 32 ∨ (Rect.block (s := S3300000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S3300000x1.size a
  hwx1_1 : ∀ i : grid1.Coords, EltTy.bits .f32 = 32 ∨ (Rect.block (s := S3300000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S3300000x16.size a
  hwx1_2 : ∀ i : grid1.Coords, EltTy.bits .f32 = 32 ∨ (Rect.block (s := S3300000x16) S4000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x1.size a ≤ S16x1.size a
  hwx3_1 : ∀ i : grid3.Coords, EltTy.bits .f32 = 32 ∨ (Rect.block (s := S16x1) S16x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x1.size a ≤ S3300000x1.size a
  hwx4_0 : ∀ i : grid4.Coords, EltTy.bits .f32 = 32 ∨ (Rect.block (s := S3300000x1) S4000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S3300000x1.size a
  hwx4_1 : ∀ i : grid4.Coords, EltTy.bits .f32 = 32 ∨ (Rect.block (s := S3300000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S3300000x1.size a
  hwx4_2 : ∀ i : grid4.Coords, EltTy.bits .f32 = 32 ∨ (Rect.block (s := S3300000x1) S4000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S100000x1.size a
  hwx5_0 : ∀ i : grid5.Coords, EltTy.bits .f32 = 32 ∨ (Rect.block (s := S100000x1) S10000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x3_S3x16_S10000x16_1_0_0_1_n_n : DotDims S10000x3 S3x16 S10000x16 where
  lhsContracting := [1]
  rhsContracting := [0]
  lhsNonContracting := [0]
  rhsNonContracting := [1]
  lhsBatch := []
  rhsBatch := []
  wf := dot_S10000x3_S3x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S4000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v47) S10000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v54) S4000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v32) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S4000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v58) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v60) S10000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S100000x3, .f32⟩
  | 1 => ⟨S2x3200000, .i32⟩
  | 2 => ⟨S3x16, .f32⟩
  | 3 => ⟨S16, .f32⟩
  | 4 => ⟨S16x1, .f32⟩
  | 5 => ⟨S1, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S100000x16, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x1, .f32⟩
  | 60 => ⟨S3300000x16, .f32⟩
  | 61 => ⟨S3300000x16, .f32⟩
  | 62 => ⟨S_, .f32⟩
  | 63 => ⟨S100000x16, .f32⟩
  | 64 => ⟨S3300000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000, .i32⟩
  | 73 => ⟨S1x3200000, .i32⟩
  | 74 => ⟨S3200000, .i32⟩
  | 75 => ⟨S3300000, .i32⟩
  | 76 => ⟨S1x3200000, .i32⟩
  | 77 => ⟨S3200000, .i32⟩
  | 78 => ⟨S3300000, .i32⟩
  | 79 => ⟨S_, .f32⟩
  | 80 => ⟨S3300000, .f32⟩
  | 81 => ⟨S_, .f32⟩
  | 82 => ⟨S100000, .f32⟩
  | 83 => ⟨S3300000x1, .i32⟩
  | 84 => ⟨S100000, .f32⟩
  | 85 => ⟨S_, .f32⟩
  | 86 => ⟨S100000, .f32⟩
  | 87 => ⟨S100000, .i1⟩
  | 88 => ⟨S_, .f32⟩
  | 89 => ⟨S100000, .f32⟩
  | 90 => ⟨S100000, .f32⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000, .f32⟩
  | 114 => ⟨S3300000, .f32⟩
  | 115 => ⟨S100000x1, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x1, .f32⟩
  | 125 => ⟨S3300000x1, .f32⟩
  | 126 => ⟨S3300000x1, .f32⟩
  | 127 => ⟨S_, .f32⟩
  | _ => ⟨S100000x3, .f32⟩

abbrev hbmTy0_1 (i : Nat) : BufTy := match i % 128 with
  | 0 => ⟨S100000x1, .f32⟩
  | 1 => ⟨S3300000x1, .i32⟩
  | 2 => ⟨S100000x1, .f32⟩
  | 3 => ⟨S1x1, .f32⟩
  | 4 => ⟨S100000x1, .f32⟩
  | 5 => ⟨S100000x1, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_17 : Ref sig .tc := ⟨.hbm, 105, rfl⟩
abbrev main_v74 : Ref sig .tc := ⟨.hbm, 106, rfl⟩
abbrev main_v75 : Ref sig .tc := ⟨.hbm, 107, rfl⟩
abbrev main_c_18 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x3_S3x16_S100000x16_1_0_0_1_n_n_wf : DotDims.WF S100000x3 S3x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel's run with its RESULT NAMED. The program is six pipelined regions (two dense products, two
  row scalings, two bias additions) among stretches of host operations (gathers, scatter-additions, index
  arithmetic). Every weakly fair execution terminates without a fault; at the end each unscoped buffer of a core
  holds the last boundary's contents `W13`: the launch memory folded through the host stretches and, region by region,
  through what each region's write-backs leave in its arrays. So the result array ends at `W13` read at the result's
  buffer, and the six arguments end as launched. What `W13` holds there, as one term of the arguments, is computed in
  the module that folds the boundaries.
-/
import proofs.«101587_j19602230739361_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the thirteen segments, its final state read at the result's buffer as well as at the arguments':
    the result holds the last boundary's contents there, each argument its launch contents. -/
theorem run_named : θ_run defs (onTc (τ := τ) (main (F := F))) ⟨m, fun _ => 0, ρ⟩ (fun r => ∀ c : Dev nD,
      r.2.mem ((c.tc : Thread nD τ).loc main_v60) = W13 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v60 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.Named

end
-- ==== Proof.Layers.lean ====
/-
  The six dense steps of the two graph-convolution layers, each as ONE whole-array function in the reference's own
  spelling: the feature product `x · W` (a contraction of the one shared axis), the scaling of every gathered row by
  its normalisation entry, and the addition of the bias row (followed, in the first layer, by the maximum with zero).
  The kernel computes each of them block by block in a pipelined region; the reference computes each by one host
  operation. Stating them once, here, is what lets the two programs be compared as terms: everything between two
  such steps (index arithmetic, gathers, scatter-additions) is the same operation on both sides.
-/
import proofs.«101587_j19602230739361_2_alg».proof.ReferenceIdeal
import proofs.«101587_j19602230739361_2_alg».proof.Proof.Gen.ReferenceIdeal

noncomputable section

namespace Cert.Layers

open Cert.ReferenceIdeal Cert.ReferenceIdeal.Facts₀ Idealize.ShloMosaic

variable {F : FTy → Type} [FloatOps F]

/-- First layer: `x · W1`, rows of three features against the 3 × 16 weight. -/
def product1 (x : FVec F S100000x3 .f32) (w : FVec F S3x16 .f32) : FVec F S100000x16 .f32 :=
  Host.dotGeneral dot_S100000x3_S3x16_S100000x16_1_0_0_1_n_n none x w

/-- First layer: every gathered row (16 entries) times that row's normalisation entry. -/
def scaled16 (h : FVec F S3300000x16 .f32) (n : FVec F S3300000x1 .f32) : FVec F S3300000x16 .f32 :=
  mulf h (broadcastInDim S3300000x16 ![0, 1] bcast_S3300000x1_S3300000x16_0_1 n)

/-- First layer: the bias row added to every aggregated row, then the maximum with zero. -/
def biasRelu16 (a : FVec F S100000x16 .f32) (b : FVec F S1x16 .f32) : FVec F S100000x16 .f32 :=
  maximumf (addf a (broadcastInDim S100000x16 ![0, 1] bcast_S1x16_S100000x16_0_1 b))
    (broadcastInDim S100000x16 ![] bcast_S_S100000x16 (constant S_ .f32 0x00000000#32))

/-- Second layer: `h · W2`, rows of sixteen features against the 16 × 1 weight. -/
def product2 (x : FVec F S100000x16 .f32) (w : FVec F S16x1 .f32) : FVec F S100000x1 .f32 :=
  Host.dotGeneral dot_S100000x16_S16x1_S100000x1_1_0_0_1_n_n none x w

/-- Second layer: every gathered entry times its normalisation entry. -/
def scaled1 (h : FVec F S3300000x1 .f32) (n : FVec F S3300000x1 .f32) : FVec F S3300000x1 .f32 :=
  mulf h n

/-- Second layer: the one bias entry added to every aggregated entry. -/
def bias1 (a : FVec F S100000x1 .f32) (b : FVec F S1x1 .f32) : FVec F S100000x1 .f32 :=
  addf a (broadcastInDim S100000x1 ![0, 1] bcast_S1x1_S100000x1_0_1 b)

end Cert.Layers

end
-- ==== Proof.Reshapes.lean ====
/-
  Three changes of shape that the two programs spell differently. The kernel's program turns a vector into a one-column
  array, and a bias vector into a one-row array, by a reshape (same elements, row-major order); the reference does it by a
  broadcast along a new axis of extent one. With a unit axis the two read the same element at every index: the
  row-major position of `(r, 0)` in an `n × 1` array is `r`, and of `(0, q)` in a `1 × n` array is `q`.
-/
import proofs.«101587_j19602230739361_2_alg».proof.KernelIdeal
import proofs.«101587_j19602230739361_2_alg».proof.ReferenceIdeal
import proofs.«101587_j19602230739361_2_alg».proof.Proof.Gen.KernelIdeal
import proofs.«101587_j19602230739361_2_alg».proof.Proof.Gen.ReferenceIdeal
import Idealize.ShloMosaic.Lib.Pipeline.Value
import Idealize.ShloMosaic.Lib.ValueIdx

noncomputable section

namespace Cert.Reshapes

open Idealize.ShloMosaic

variable {α : Type}

/-- A vector of 3300000 entries as a column: the reshape is the broadcast along a new second axis. -/
theorem column (v : Cert.KernelIdeal.S3300000.Idx → α) :
    shapeCast Cert.KernelIdeal.S3300000x1 v Cert.KernelIdeal.Facts₀.shapeCasts_S3300000_S3300000x1
      = broadcastInDim Cert.ReferenceIdeal.S3300000x1 ![0] Cert.ReferenceIdeal.Facts₀.bcast_S3300000_S3300000x1_0 v := by
  funext j
  have hj0 : (j 0).val < 3300000 := (j 0).isLt
  have hj1 : (j 1).val < 1 := (j 1).isLt
  let k : Cert.KernelIdeal.S3300000.Idx := ValueIdx.ix1 (⟨(j 0).val, hj0⟩ : Fin 3300000)
  have hk : (k 0).val = (j 0).val := rfl
  rw [shapeCast_apply v Cert.KernelIdeal.Facts₀.shapeCasts_S3300000_S3300000x1 j k (by
      rw [Shape.rowMajor_val_one, Shape.rowMajor_val_two]
      show (k 0).val = (j 0).val * 1 + (j 1).val
      omega),
    broadcastInDim_apply ![0] Cert.ReferenceIdeal.Facts₀.bcast_S3300000_S3300000x1_0 v j k (fun a => by
      match a with
      | ⟨0, _⟩ => exact hk)]

/-- A bias vector of 16 entries as a row: the reshape is the broadcast along a new first axis. -/
theorem row16 (v : Cert.KernelIdeal.S16.Idx → α) :
    shapeCast Cert.KernelIdeal.S1x16 v Cert.KernelIdeal.Facts₀.shapeCasts_S16_S1x16
      = broadcastInDim Cert.ReferenceIdeal.S1x16 ![1] Cert.ReferenceIdeal.Facts₀.bcast_S16_S1x16_1 v := by
  funext j
  have hj0 : (j 0).val < 1 := (j 0).isLt
  have hj1 : (j 1).val < 16 := (j 1).isLt
  let k : Cert.KernelIdeal.S16.Idx := ValueIdx.ix1 (⟨(j 1).val, hj1⟩ : Fin 16)
  have hk : (k 0).val = (j 1).val := rfl
  rw [shapeCast_apply v Cert.KernelIdeal.Facts₀.shapeCasts_S16_S1x16 j k (by
      rw [Shape.rowMajor_val_one, Shape.rowMajor_val_two]
      show (k 0).val = (j 0).val * 16 + (j 1).val
      omega),
    broadcastInDim_apply ![1] Cert.ReferenceIdeal.Facts₀.bcast_S16_S1x16_1 v j k (fun a => by
      match a with
      | ⟨0, _⟩ => exact hk)]

/-- A bias vector of one entry as a 1 × 1 array: the reshape is the broadcast along a new first axis. -/
theorem row1 (v : Cert.KernelIdeal.S1.Idx → α) :
    shapeCast Cert.KernelIdeal.S1x1 v Cert.KernelIdeal.Facts₀.shapeCasts_S1_S1x1
      = broadcastInDim Cert.ReferenceIdeal.S1x1 ![1] Cert.ReferenceIdeal.Facts₀.bcast_S1_S1x1_1 v := by
  funext j
  have hj0 : (j 0).val < 1 := (j 0).isLt
  have hj1 : (j 1).val < 1 := (j 1).isLt
  let k : Cert.KernelIdeal.S1.Idx := ValueIdx.ix1 (⟨0, by decide⟩ : Fin 1)
  have hk : (k 0).val = 0 := rfl
  rw [shapeCast_apply v Cert.KernelIdeal.Facts₀.shapeCasts_S1_S1x1 j k (by
      rw [Shape.rowMajor_val_one, Shape.rowMajor_val_two]
      show (k 0).val = (j 0).val * 1 + (j 1).val
      omega),
    broadcastInDim_apply ![1] Cert.ReferenceIdeal.Facts₀.bcast_S1_S1x1_1 v j k (fun a => by
      match a with
      | ⟨0, _⟩ => exact hk)]

end Cert.Reshapes

end
-- ==== Proof.Product1.lean ====
/-
  The first dense product, `x · W1`, computed block by block on the matrix unit.
  The grid has 10 points; point `t` stages rows `10000·t … 10000·t + 9999` of the left array (3 columns) and the
  whole 3 × 16 weight, forms on the matrix unit the product of the block with the weight from a zero accumulator,
  and writes the 10000 × 16 block back at the same rows. Over the extended reals the two narrowings to bf16 are the
  identity and the product's entry `(r, q)` is the sum over the 3 shared coordinates `k` of `x[r, k] · w[k, q]` — which is
  also what the reference's one contraction of the whole arrays has there. Every row lies in exactly one block, so
  the array the region leaves is that contraction of the two arrays it found.
-/
import proofs.«101587_j19602230739361_2_alg».proof.Proof.Gen.KernelIdeal.Frame
import proofs.«101587_j19602230739361_2_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Product1

open Cert.KernelIdeal Cert.KernelIdeal.Gen Idealize.ShloMosaic Idealize.ShloMosaic.TcCoe Idealize.SL.Sem
open Idealize.ShloMosaic.Pipeline (Dat)
open Cert.Layers

variable (V : (c : Dev nD) → (b : Ref sig .tc) → Buf (Elt Ideal) ((c : Thread nD τ).loc b))

/-! ## The block product as a sum over the shared axis -/

/-- The left block's entry in row `j 0`, shared coordinate `k`. -/
abbrev blockLeft (j : S10000x16.Idx) (k : Fin 3) : S10000x3.Idx := fun a => match a with
  | ⟨0, _⟩ => ⟨(j 0).val, (j 0).isLt⟩
  | ⟨1, _⟩ => ⟨k.val, k.isLt⟩
/-- The weight's entry at shared coordinate `k`, column `j 1`. -/
abbrev blockRight (j : S10000x16.Idx) (k : Fin 3) : S3x16.Idx := fun a => match a with
  | ⟨0, _⟩ => ⟨k.val, k.isLt⟩
  | ⟨1, _⟩ => ⟨(j 1).val, (j 1).isLt⟩

theorem blockDot_lhs0 (i : S10000x16.Idx) (q : dot_S10000x3_S3x16_S10000x16_1_0_0_1_n_n.contr.Idx) : (dot_S10000x3_S3x16_S10000x16_1_0_0_1_n_n.lhsIdx i q 0).val = (i 0).val := by
  unfold DotDims.lhsIdx
  rw [dif_neg (show ¬(0 : Fin S10000x3.rank) ∈ dot_S10000x3_S3x16_S10000x16_1_0_0_1_n_n.lhsBatch by decide), dif_pos (show (0 : Fin S10000x3.rank) ∈ dot_S10000x3_S3x16_S10000x16_1_0_0_1_n_n.lhsNonContracting by decide)]
  rfl
theorem blockDot_lhs1 (i : S10000x16.Idx) (q : dot_S10000x3_S3x16_S10000x16_1_0_0_1_n_n.contr.Idx) : (dot_S10000x3_S3x16_S10000x16_1_0_0_1_n_n.lhsIdx i q 1).val = (q ⟨0, by decide⟩).val :=
  dot_S10000x3_S3x16_S10000x16_1_0_0_1_n_n.lhsIdx_val_of_single rfl i q
theorem blockDot_rhs0 (i : S10000x16.Idx) (q : dot_S10000x3_S3x16_S10000x16_1_0_0_1_n_n.contr.Idx) : (dot_S10000x3_S3x16_S10000x16_1_0_0_1_n_n.rhsIdx i q 0).val = (q ⟨0, by decide⟩).val :=
  dot_S10000x3_S3x16_S10000x16_1_0_0_1_n_n.rhsIdx_val_of_single rfl i q
theorem blockDot_rhs1 (i : S10000x16.Idx) (q : dot_S10000x3_S3x16_S10000x16_1_0_0_1_n_n.contr.Idx) : (dot_S10000x3_S3x16_S10000x16_1_0_0_1_n_n.rhsIdx i q 1).val = (i 1).val := by
  unfold DotDims.rhsIdx
  rw [dif_neg (show ¬(1 : Fin S3x16.rank) ∈ dot_S10000x3_S3x16_S10000x16_1_0_0_1_n_n.rhsBatch by decide), dif_pos (show (1 : Fin S3x16.rank) ∈ dot_S10000x3_S3x16_S10000x16_1_0_0_1_n_n.rhsNonContracting by decide)]
  rfl

/-- The body's stored value at an entry of the block: the sum over the shared axis of the staged products. -/
theorem pay_apply (x0 : Vec Ideal S10000x3 .f32) (x1 : Vec Ideal S3x16 .f32) (j : S10000x16.Idx) :
    k0_pay1 x0 x1 j = ∑ k : Fin 3, x0 (blockLeft j k) * x1 (blockRight j k) := by
  unfold k0_pay1
  refine (Ideal.matmul_constant_zero_apply dot_S10000x3_S3x16_S10000x16_1_0_0_1_n_n none _ _ j).trans ?_
  rw [← Equiv.sum_comp (ValueIdx.contrEquiv1 dot_S10000x3_S3x16_S10000x16_1_0_0_1_n_n 3 rfl rfl).symm]
  refine Finset.sum_congr rfl fun k _ => ?_
  have hk := ValueIdx.contrEquiv1_symm_val dot_S10000x3_S3x16_S10000x16_1_0_0_1_n_n 3 rfl rfl k
  have el : dot_S10000x3_S3x16_S10000x16_1_0_0_1_n_n.lhsIdx j ((ValueIdx.contrEquiv1 dot_S10000x3_S3x16_S10000x16_1_0_0_1_n_n 3 rfl rfl).symm k) = blockLeft j k := funext fun a => Fin.ext (by
    match a with
    | ⟨0, _⟩ => exact blockDot_lhs0 _ _
    | ⟨1, _⟩ => exact (blockDot_lhs1 _ _).trans hk)
  have er : dot_S10000x3_S3x16_S10000x16_1_0_0_1_n_n.rhsIdx j ((ValueIdx.contrEquiv1 dot_S10000x3_S3x16_S10000x16_1_0_0_1_n_n 3 rfl rfl).symm k) = blockRight j k := funext fun a => Fin.ext (by
    match a with
    | ⟨0, _⟩ => exact (blockDot_rhs0 _ _).trans hk
    | ⟨1, _⟩ => exact blockDot_rhs1 _ _)
  rw [el, er]
  rfl

/-! ## The whole contraction as the same sum -/

/-- The left array's entry in row `i 0`, shared coordinate `k`. -/
abbrev arrayLeft (i : S100000x16.Idx) (k : Fin 3) : S100000x3.Idx := fun a => match a with
  | ⟨0, _⟩ => ⟨(i 0).val, (i 0).isLt⟩
  | ⟨1, _⟩ => ⟨k.val, k.isLt⟩
/-- The weight's entry at shared coordinate `k`, column `i 1`. -/
abbrev arrayRight (i : S100000x16.Idx) (k : Fin 3) : S3x16.Idx := fun a => match a with
  | ⟨0, _⟩ => ⟨k.val, k.isLt⟩
  | ⟨1, _⟩ => ⟨(i 1).val, (i 1).isLt⟩

theorem arrayDot_lhs0 (i : S100000x16.Idx) (q : Cert.ReferenceIdeal.dot_S100000x3_S3x16_S100000x16_1_0_0_1_n_n.contr.Idx) : (Cert.ReferenceIdeal.dot_S100000x3_S3x16_S100000x16_1_0_0_1_n_n.lhsIdx i q 0).val = (i 0).val := by
  unfold DotDims.lhsIdx
  rw [dif_neg (show ¬(0 : Fin S100000x3.rank) ∈ Cert.ReferenceIdeal.dot_S100000x3_S3x16_S100000x16_1_0_0_1_n_n.lhsBatch by decide), dif_pos (show (0 : Fin S100000x3.rank) ∈ Cert.ReferenceIdeal.dot_S100000x3_S3x16_S100000x16_1_0_0_1_n_n.lhsNonContracting by decide)]
  rfl
theorem arrayDot_lhs1 (i : S100000x16.Idx) (q : Cert.ReferenceIdeal.dot_S100000x3_S3x16_S100000x16_1_0_0_1_n_n.contr.Idx) : (Cert.ReferenceIdeal.dot_S100000x3_S3x16_S100000x16_1_0_0_1_n_n.lhsIdx i q 1).val = (q ⟨0, by decide⟩).val :=
  Cert.ReferenceIdeal.dot_S100000x3_S3x16_S100000x16_1_0_0_1_n_n.lhsIdx_val_of_single rfl i q
theorem arrayDot_rhs0 (i : S100000x16.Idx) (q : Cert.ReferenceIdeal.dot_S100000x3_S3x16_S100000x16_1_0_0_1_n_n.contr.Idx) : (Cert.ReferenceIdeal.dot_S100000x3_S3x16_S100000x16_1_0_0_1_n_n.rhsIdx i q 0).val = (q ⟨0, by decide⟩).val :=
  Cert.ReferenceIdeal.dot_S100000x3_S3x16_S100000x16_1_0_0_1_n_n.rhsIdx_val_of_single rfl i q
theorem arrayDot_rhs1 (i : S100000x16.Idx) (q : Cert.ReferenceIdeal.dot_S100000x3_S3x16_S100000x16_1_0_0_1_n_n.contr.Idx) : (Cert.ReferenceIdeal.dot_S100000x3_S3x16_S100000x16_1_0_0_1_n_n.rhsIdx i q 1).val = (i 1).val := by
  unfold DotDims.rhsIdx
  rw [dif_neg (show ¬(1 : Fin S3x16.rank) ∈ Cert.ReferenceIdeal.dot_S100000x3_S3x16_S100000x16_1_0_0_1_n_n.rhsBatch by decide), dif_pos (show (1 : Fin S3x16.rank) ∈ Cert.ReferenceIdeal.dot_S100000x3_S3x16_S100000x16_1_0_0_1_n_n.rhsNonContracting by decide)]
  rfl

/-- An entry of the whole contraction: the sum over the shared axis of the products of the two arrays' entries. -/
theorem product_apply (x : FVec Ideal S100000x3 .f32) (w : FVec Ideal S3x16 .f32) (i : S100000x16.Idx) :
    product1 (F := Ideal) x w i = ∑ k : Fin 3, x (arrayLeft i k) * w (arrayRight i k) := by
  unfold product1
  simp only [Host.dotGeneral]
  rw [Ideal.dotGeneral_apply, ← Equiv.sum_comp (ValueIdx.contrEquiv1 Cert.ReferenceIdeal.dot_S100000x3_S3x16_S100000x16_1_0_0_1_n_n 3 rfl rfl).symm]
  refine Finset.sum_congr rfl fun k _ => ?_
  have hk := ValueIdx.contrEquiv1_symm_val Cert.ReferenceIdeal.dot_S100000x3_S3x16_S100000x16_1_0_0_1_n_n 3 rfl rfl k
  have el : Cert.ReferenceIdeal.dot_S100000x3_S3x16_S100000x16_1_0_0_1_n_n.lhsIdx i ((ValueIdx.contrEquiv1 Cert.ReferenceIdeal.dot_S100000x3_S3x16_S100000x16_1_0_0_1_n_n 3 rfl rfl).symm k) = arrayLeft i k := funext fun a => Fin.ext (by
    match a with
    | ⟨0, _⟩ => exact arrayDot_lhs0 _ _
    | ⟨1, _⟩ => exact (arrayDot_lhs1 _ _).trans hk)
  have er : Cert.ReferenceIdeal.dot_S100000x3_S3x16_S100000x16_1_0_0_1_n_n.rhsIdx i ((ValueIdx.contrEquiv1 Cert.ReferenceIdeal.dot_S100000x3_S3x16_S100000x16_1_0_0_1_n_n 3 rfl rfl).symm k) = arrayRight i k := funext fun a => Fin.ext (by
    match a with
    | ⟨0, _⟩ => exact (arrayDot_rhs0 _ _).trans hk
    | ⟨1, _⟩ => exact arrayDot_rhs1 _ _)
  rw [el, er]

/-! ## From the blocks to the array -/

theorem offsets_zero : (![0, 0] : Fin 2 → Nat) = fun _ => 0 := funext fun a => by fin_cases a <;> rfl

/-- The three index maps, decided over the 10 points: the left and the result windows' block at point `t` is block row
    `t`, block column 0; the weight's block is always the whole weight. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the contraction of the two arrays the region found. -/
theorem flushed_eq (c : Dev nD) (t : Fin cfg0.N) :
    (dat0 V c).flushed 2 t = ((cfg0.win 2).blk t).view.read (Elt Ideal) (product1 (F := Ideal) (V c main_arg0) (V c main_arg2)) := by
  show (cfg0.win 2).cut (grid0.coords t) ((dat0 V c).after 2 t) = _
  rw [after0_2]
  unfold out0_2
  rw [View.canon_unit_zero offsets_zero]
  simp only [View.ld_unit_zero (S := S10000x3) offsets_zero, View.ld_unit_zero (S := S3x16) offsets_zero]
  obtain ⟨e0, e1, e2, e3, e4, e5⟩ := block_index t
  funext j
  refine (pay_apply (iblk0 V c 0 t) (iblk0 V c 1 t) j).trans
    (Eq.trans ?_ (product_apply (V c main_arg0) (V c main_arg2) (((cfg0.win 2).blk t).view.emb j)).symm)
  refine Finset.sum_congr rfl fun k _ => ?_
  have hL : ((cfg0.win 0).blk t).view.emb (blockLeft j k) = arrayLeft (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 3 + 1 * k.val = k.val; omega
  have hR : ((cfg0.win 1).blk t).view.emb (blockRight j k) = arrayRight (((cfg0.win 2).blk t).view.emb j) k := by
    funext a; apply Fin.ext
    match a with
    | ⟨0, _⟩ => show win0_1.index t (0 : Fin 2) * 3 + 1 * k.val = k.val; omega
    | ⟨1, _⟩ => show win0_1.index t (1 : Fin 2) * 16 + 1 * (j 1).val = win0_2.index t (1 : Fin 2) * 16 + 1 * (j 1).val; omega
  rw [← hL, ← hR]
  rfl

/-- An entry of the array is in point `t`'s block iff each coordinate is in the block's range. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v33).slice (win0_2.rect t)).set ↔ _
  rw [View.set_slice_whole, Rect.mem_set_unit]
  exact Iff.rfl

/-- Row `r` lies in the block of point `r / 10000`: the blocks cover the array. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 10 := N_0
  let t : Fin cfg0.N := ⟨(i 0).val / 10000, by show (i 0).val / 10000 < grid0.N; omega⟩
  obtain ⟨e0, e1, e2, e3, e4, e5⟩ := block_index t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The array the region leaves, whole: the layer step of the two arrays it found. -/
theorem final (c : Dev nD) : (dat0 V c).arrAt 2 cfg0.N = product1 (F := Ideal) (V c main_arg0) (V c main_arg2) :=
  (dat0 V c).arrAt_eq_of_cover 2 (product1 (F := Ideal) (V c main_arg0) (V c main_arg2)) (fun t _ => flushed_eq V c t) cover

end Cert.KernelIdeal.Product1

end
-- ==== Proof.ScaleRows16.lean ====
/-
  The first row-scaling region. Its grid has 825 points; point `t` stages rows `4000·t … 4000·t + 3999` of the
  gathered features (16 columns) and of the normalisation column (one column), multiplies every row of the block by
  that row's one normalisation entry, and writes the block back at the same rows. Every row lies in exactly one
  block, so the array the region leaves is ONE function of the two arrays it found: each entry `h[r, q] · n[r, 0]`,
  which is how the reference writes the same product (the column broadcast along the second axis, then an
  elementwise product).
-/
import proofs.«101587_j19602230739361_2_alg».proof.Proof.Gen.KernelIdeal.Frame
import proofs.«101587_j19602230739361_2_alg».proof.Proof.Layers
import Idealize.ShloMosaic.Lib.Pipeline.Value
import Idealize.ShloMosaic.Lib.ValueIdx

set_option maxRecDepth 16384

noncomputable section

namespace Cert.KernelIdeal.ScaleRows16

open Cert.KernelIdeal Cert.KernelIdeal.Gen Idealize.ShloMosaic Idealize.ShloMosaic.TcCoe Idealize.SL.Sem
open Idealize.ShloMosaic.Pipeline (Dat)
open Cert.Layers

variable {F : FTy → Type} [FloatOps F]
variable (V : (c : Dev nD) → (b : Ref sig .tc) → Buf (Elt F) ((c : Thread nD τ).loc b))

/-- An entry of the scaled array: the entry of `h` times the entry of `n` in the same row. -/
theorem scaled_apply (h : FVec F S3300000x16 .f32) (n : FVec F S3300000x1 .f32) (i : S3300000x16.Idx) (k : S3300000x1.Idx)
    (h0 : (k 0).val = (i 0).val) (h1 : (k 1).val = 0) : scaled16 (F := F) h n i = FloatOps.mulf (h i) (n k) := by
  unfold scaled16
  show FloatOps.mulf (h i) (broadcastInDim S3300000x16 ![0, 1] Cert.ReferenceIdeal.Facts₀.bcast_S3300000x1_S3300000x16_0_1 n i) = _
  rw [broadcastInDim_apply ![0, 1] Cert.ReferenceIdeal.Facts₀.bcast_S3300000x1_S3300000x16_0_1 n i k (fun a => by
    match a with
    | ⟨0, _⟩ => exact h0
    | ⟨1, _⟩ => exact h1)]

/-- The body's stored value at an entry of the block: the staged feature entry times the staged column's entry in the
    same row of the block. -/
theorem pay_apply (x0 : Vec F S4000x16 .f32) (x1 : Vec F S4000x1 .f32) (j : S4000x16.Idx) (k : S4000x1.Idx)
    (h0 : (k 0).val = (j 0).val) (h1 : (k 1).val = 0) : k1_pay1 x0 x1 j = FloatOps.mulf (x0 j) (x1 k) := by
  unfold k1_pay1
  rw [shapeCast_self, shapeCast_self]
  show FloatOps.mulf (x0 j) (broadcastTo S4000x16 x1 Facts₀.broadcasts_S4000x1_S4000x16 j) = _
  rw [broadcastTo_apply x1 Facts₀.broadcasts_S4000x1_S4000x16 j k (fun a => by
    match a with
    | ⟨0, _⟩ => exact h0
    | ⟨1, _⟩ => exact h1)]

theorem offsets_zero : (![0, 0] : Fin 2 → Nat) = fun _ => 0 := funext fun a => by fin_cases a <;> rfl

/-- The three index maps, decided over the 825 points: each window's block at point `t` is block row `t`, block column 0. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled array of the two arrays the region found. -/
theorem flushed_eq (c : Dev nD) (t : Fin cfg1.N) :
    (dat1 V c).flushed 2 t = ((cfg1.win 2).blk t).view.read (Elt F) (scaled16 (F := F) (V c main_v40) (V c main_v32)) := by
  show (cfg1.win 2).cut (grid1.coords t) ((dat1 V c).after 2 t) = _
  rw [after1_2]
  unfold out1_2
  rw [View.canon_unit_zero offsets_zero]
  simp only [View.ld_unit_zero (S := S4000x16) offsets_zero, View.ld_unit_zero (S := S4000x1) offsets_zero]
  obtain ⟨e0, e1, e2, e3, e4, e5⟩ := block_index t
  funext j
  have hj0 : (j 0).val < 4000 := (j 0).isLt
  let kb : S4000x1.Idx := ValueIdx.ix2 (⟨(j 0).val, hj0⟩ : Fin 4000) (⟨0, by decide⟩ : Fin 1)
  have hkb0 : (kb 0).val = (j 0).val := rfl
  have hkb1 : (kb 1).val = 0 := rfl
  refine (pay_apply (iblk1 V c 0 t) (iblk1 V c 1 t) j kb hkb0 hkb1).trans ?_
  have hrow : ((cfg1.win 0).blk t).view.emb j = ((cfg1.win 2).blk t).view.emb j := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 16 + 1 * (j 1).val = win1_2.index t (1 : Fin 2) * 16 + 1 * (j 1).val; omega
  have hc0 : ((((cfg1.win 1).blk t).view.emb kb) 0).val = ((((cfg1.win 2).blk t).view.emb j) 0).val := by
    show win1_1.index t (0 : Fin 2) * 4000 + 1 * (kb 0).val = win1_2.index t (0 : Fin 2) * 4000 + 1 * (j 0).val; omega
  have hc1 : ((((cfg1.win 1).blk t).view.emb kb) 1).val = 0 := by
    show win1_1.index t (1 : Fin 2) * 1 + 1 * (kb 1).val = 0; omega
  show FloatOps.mulf (V c main_v40 (((cfg1.win 0).blk t).view.emb j)) (V c main_v32 (((cfg1.win 1).blk t).view.emb kb))
    = scaled16 (F := F) (V c main_v40) (V c main_v32) (((cfg1.win 2).blk t).view.emb j)
  rw [scaled_apply (V c main_v40) (V c main_v32) (((cfg1.win 2).blk t).view.emb j) (((cfg1.win 1).blk t).view.emb kb) hc0 hc1, hrow]

/-- An entry of the array is in point `t`'s block iff each coordinate is in the block's range. -/
theorem mem_blk (t : Fin cfg1.N) (i : S3300000x16.Idx) :
    i ∈ ((cfg1.win 2).blk t).view.set ↔ ∀ a : Fin 2, win1_2.index t a * S4000x16.size a ≤ (i a).val ∧ (i a).val < win1_2.index t a * S4000x16.size a + S4000x16.size a := by
  show i ∈ ((View.whole main_v41).slice (win1_2.rect t)).set ↔ _
  rw [View.set_slice_whole, Rect.mem_set_unit]
  exact Iff.rfl

/-- Row `r` lies in the block of point `r / 4000`: the blocks cover the array. -/
theorem cover (i : S3300000x16.Idx) : ∃ t : Fin cfg1.N, (cfg1.win 2).flush t = true ∧ i ∈ ((cfg1.win 2).blk t).view.set := by
  have hi0 : (i 0).val < 3300000 := (i 0).isLt
  have hi1 : (i 1).val < 16 := (i 1).isLt
  have hN : grid1.N = 825 := N_1
  let t : Fin cfg1.N := ⟨(i 0).val / 4000, by show (i 0).val / 4000 < grid1.N; omega⟩
  obtain ⟨e0, e1, e2, e3, e4, e5⟩ := block_index t
  have ht : t.val = (i 0).val / 4000 := rfl
  refine ⟨t, flush1_2 t, ?_⟩
  rw [mem_blk]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 16 ≤ (i 1).val ∧ (i 1).val < win1_2.index t (1 : Fin 2) * 16 + 16; omega

/-- The array the region leaves, whole: the layer step of the two arrays it found. -/
theorem final (c : Dev nD) : (dat1 V c).arrAt 2 cfg1.N = scaled16 (F := F) (V c main_v40) (V c main_v32) :=
  (dat1 V c).arrAt_eq_of_cover 2 (scaled16 (F := F) (V c main_v40) (V c main_v32)) (fun t _ => flushed_eq V c t) cover

end Cert.KernelIdeal.ScaleRows16

end
-- ==== Proof.BiasRelu16.lean ====
/-
  The first layer's bias addition and rectification.
  The grid has 10 points; point `t` stages rows `10000·t … 10000·t + 9999` of the aggregated array (16 columns) and the
  whole 1 × 16 bias row, adds the bias row to every row of the block, takes the maximum with zero, and writes the block back at
  the same rows. Every row lies in exactly one block, so the array the region leaves is one function of the two arrays
  it found: entry `(r, q)` is `max (a[r, q] + b[0, q]) 0`, which is how the reference writes it (the bias row broadcast
  along the first axis, an elementwise sum, an elementwise maximum with the zero splat).
-/
import proofs.«101587_j19602230739361_2_alg».proof.Proof.Gen.KernelIdeal.Frame
import proofs.«101587_j19602230739361_2_alg».proof.Proof.Layers
import Idealize.ShloMosaic.Lib.Pipeline.Value
import Idealize.ShloMosaic.Lib.ValueIdx

set_option maxRecDepth 16384

noncomputable section

namespace Cert.KernelIdeal.BiasRelu16

open Cert.KernelIdeal Cert.KernelIdeal.Gen Idealize.ShloMosaic Idealize.ShloMosaic.TcCoe Idealize.SL.Sem
open Idealize.ShloMosaic.Pipeline (Dat)
open Cert.Layers

variable {F : FTy → Type} [FloatOps F]
variable (V : (c : Dev nD) → (b : Ref sig .tc) → Buf (Elt F) ((c : Thread nD τ).loc b))

/-- An entry of the layer step: the aggregated entry plus the bias entry of the same column, capped below by zero. -/
theorem step_apply (a : FVec F S100000x16 .f32) (b : FVec F S1x16 .f32) (i : S100000x16.Idx) (k : S1x16.Idx)
    (h0 : (k 0).val = 0) (h1 : (k 1).val = (i 1).val) :
    biasRelu16 (F := F) a b i = FloatOps.maximumf (FloatOps.addf (a i) (b k)) (FloatOps.ofBits .f32 0x00000000#32) := by
  unfold biasRelu16
  show FloatOps.maximumf (FloatOps.addf (a i) (broadcastInDim S100000x16 ![0, 1] Cert.ReferenceIdeal.Facts₀.bcast_S1x16_S100000x16_0_1 b i)) (FloatOps.ofBits .f32 0x00000000#32) = _
  rw [broadcastInDim_apply ![0, 1] Cert.ReferenceIdeal.Facts₀.bcast_S1x16_S100000x16_0_1 b i k (fun a => by
    match a with
    | ⟨0, _⟩ => exact h0
    | ⟨1, _⟩ => exact h1)]

/-- The body's stored value at an entry of the block: the staged entry plus the staged bias entry of the same column, capped below by zero. -/
theorem pay_apply (x0 : Vec F S10000x16 .f32) (x1 : Vec F S1x16 .f32) (j : S10000x16.Idx) (k : S1x16.Idx)
    (h0 : (k 0).val = 0) (h1 : (k 1).val = (j 1).val) :
    k2_pay1 x0 x1 j = FloatOps.maximumf (FloatOps.addf (x0 j) (x1 k)) (FloatOps.ofBits .f32 0x00000000#32) := by
  unfold k2_pay1
  rw [shapeCast_self, shapeCast_self]
  show FloatOps.maximumf (FloatOps.addf (x0 j) (broadcastTo S10000x16 x1 Facts₀.broadcasts_S1x16_S10000x16 j)) (FloatOps.ofBits .f32 0x00000000#32) = _
  rw [broadcastTo_apply x1 Facts₀.broadcasts_S1x16_S10000x16 j k (fun a => by
    match a with
    | ⟨0, _⟩ => exact h0
    | ⟨1, _⟩ => exact h1)]

theorem offsets_zero : (![0, 0] : Fin 2 → Nat) = fun _ => 0 := funext fun a => by fin_cases a <;> rfl

/-- The three index maps, decided over the 10 points: the aggregated and the result windows' block at point `t` is block
    row `t`, block column 0; the bias row's block is always the whole row. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the layer step of the two arrays the region found. -/
theorem flushed_eq (c : Dev nD) (t : Fin cfg2.N) :
    (dat2 V c).flushed 2 t = ((cfg2.win 2).blk t).view.read (Elt F) (biasRelu16 (F := F) (V c main_v44) (V c main_v45)) := by
  show (cfg2.win 2).cut (grid2.coords t) ((dat2 V c).after 2 t) = _
  rw [after2_2]
  unfold out2_2
  rw [View.canon_unit_zero offsets_zero]
  simp only [View.ld_unit_zero (S := S10000x16) offsets_zero, View.ld_unit_zero (S := S1x16) offsets_zero]
  obtain ⟨e0, e1, e2, e3, e4, e5⟩ := block_index t
  funext j
  have hj1 : (j 1).val < 16 := (j 1).isLt
  let kb : S1x16.Idx := ValueIdx.ix2 (⟨0, by decide⟩ : Fin 1) (⟨(j 1).val, hj1⟩ : Fin 16)
  have hkb0 : (kb 0).val = 0 := rfl
  have hkb1 : (kb 1).val = (j 1).val := rfl
  refine (pay_apply (iblk2 V c 0 t) (iblk2 V c 1 t) j kb hkb0 hkb1).trans ?_
  have hrow : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 16 + 1 * (j 1).val = win2_2.index t (1 : Fin 2) * 16 + 1 * (j 1).val; omega
  have hc0 : ((((cfg2.win 1).blk t).view.emb kb) 0).val = 0 := by
    show win2_1.index t (0 : Fin 2) * 1 + 1 * (kb 0).val = 0; omega
  have hc1 : ((((cfg2.win 1).blk t).view.emb kb) 1).val = ((((cfg2.win 2).blk t).view.emb j) 1).val := by
    show win2_1.index t (1 : Fin 2) * 16 + 1 * (kb 1).val = win2_2.index t (1 : Fin 2) * 16 + 1 * (j 1).val; omega
  show FloatOps.maximumf (FloatOps.addf (V c main_v44 (((cfg2.win 0).blk t).view.emb j)) (V c main_v45 (((cfg2.win 1).blk t).view.emb kb))) (FloatOps.ofBits .f32 0x00000000#32)
    = biasRelu16 (F := F) (V c main_v44) (V c main_v45) (((cfg2.win 2).blk t).view.emb j)
  rw [step_apply (V c main_v44) (V c main_v45) (((cfg2.win 2).blk t).view.emb j) (((cfg2.win 1).blk t).view.emb kb) hc0 hc1, hrow]

/-- An entry of the array is in point `t`'s block iff each coordinate is in the block's range. -/
theorem mem_blk (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v46).slice (win2_2.rect t)).set ↔ _
  rw [View.set_slice_whole, Rect.mem_set_unit]
  exact Iff.rfl

/-- Row `r` lies in the block of point `r / 10000`: the blocks cover the array. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : grid2.N = 10 := N_2
  let t : Fin cfg2.N := ⟨(i 0).val / 10000, by show (i 0).val / 10000 < grid2.N; omega⟩
  obtain ⟨e0, e1, e2, e3, e4, e5⟩ := block_index t
  have ht : t.val = (i 0).val / 10000 := rfl
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- The array the region leaves, whole: the layer step of the two arrays it found. -/
theorem final (c : Dev nD) : (dat2 V c).arrAt 2 cfg2.N = biasRelu16 (F := F) (V c main_v44) (V c main_v45) :=
  (dat2 V c).arrAt_eq_of_cover 2 (biasRelu16 (F := F) (V c main_v44) (V c main_v45)) (fun t _ => flushed_eq V c t) cover

end Cert.KernelIdeal.BiasRelu16

end
-- ==== Proof.Product2.lean ====
/-
  The second dense product, `h · W2`, computed block by block on the matrix unit.
  The grid has 10 points; point `t` stages rows `10000·t … 10000·t + 9999` of the left array (16 columns) and the
  whole 16 × 1 weight, forms on the matrix unit the product of the block with the weight from a zero accumulator,
  and writes the 10000 × 1 block back at the same rows. Over the extended reals the two narrowings to bf16 are the
  identity and the product's entry `(r, q)` is the sum over the 16 shared coordinates `k` of `x[r, k] · w[k, q]` — which is
  also what the reference's one contraction of the whole arrays has there. Every row lies in exactly one block, so
  the array the region leaves is that contraction of the two arrays it found.
-/
import proofs.«101587_j19602230739361_2_alg».proof.Proof.Gen.KernelIdeal.Frame
import proofs.«101587_j19602230739361_2_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen Idealize.ShloMosaic Idealize.ShloMosaic.TcCoe Idealize.SL.Sem
open Idealize.ShloMosaic.Pipeline (Dat)
open Cert.Layers

variable (V : (c : Dev nD) → (b : Ref sig .tc) → Buf (Elt Ideal) ((c : Thread nD τ).loc b))

/-! ## The block product as a sum over the shared axis -/

/-- The left block's entry in row `j 0`, shared coordinate `k`. -/
abbrev blockLeft (j : S10000x1.Idx) (k : Fin 16) : S10000x16.Idx := fun a => match a with
  | ⟨0, _⟩ => ⟨(j 0).val, (j 0).isLt⟩
  | ⟨1, _⟩ => ⟨k.val, k.isLt⟩
/-- The weight's entry at shared coordinate `k`, column `j 1`. -/
abbrev blockRight (j : S10000x1.Idx) (k : Fin 16) : S16x1.Idx := fun a => match a with
  | ⟨0, _⟩ => ⟨k.val, k.isLt⟩
  | ⟨1, _⟩ => ⟨(j 1).val, (j 1).isLt⟩

theorem blockDot_lhs0 (i : S10000x1.Idx) (q : dot_S10000x16_S16x1_S10000x1_1_0_0_1_n_n.contr.Idx) : (dot_S10000x16_S16x1_S10000x1_1_0_0_1_n_n.lhsIdx i q 0).val = (i 0).val := by
  unfold DotDims.lhsIdx
  rw [dif_neg (show ¬(0 : Fin S10000x16.rank) ∈ dot_S10000x16_S16x1_S10000x1_1_0_0_1_n_n.lhsBatch by decide), dif_pos (show (0 : Fin S10000x16.rank) ∈ dot_S10000x16_S16x1_S10000x1_1_0_0_1_n_n.lhsNonContracting by decide)]
  rfl
theorem blockDot_lhs1 (i : S10000x1.Idx) (q : dot_S10000x16_S16x1_S10000x1_1_0_0_1_n_n.contr.Idx) : (dot_S10000x16_S16x1_S10000x1_1_0_0_1_n_n.lhsIdx i q 1).val = (q ⟨0, by decide⟩).val :=
  dot_S10000x16_S16x1_S10000x1_1_0_0_1_n_n.lhsIdx_val_of_single rfl i q
theorem blockDot_rhs0 (i : S10000x1.Idx) (q : dot_S10000x16_S16x1_S10000x1_1_0_0_1_n_n.contr.Idx) : (dot_S10000x16_S16x1_S10000x1_1_0_0_1_n_n.rhsIdx i q 0).val = (q ⟨0, by decide⟩).val :=
  dot_S10000x16_S16x1_S10000x1_1_0_0_1_n_n.rhsIdx_val_of_single rfl i q
theorem blockDot_rhs1 (i : S10000x1.Idx) (q : dot_S10000x16_S16x1_S10000x1_1_0_0_1_n_n.contr.Idx) : (dot_S10000x16_S16x1_S10000x1_1_0_0_1_n_n.rhsIdx i q 1).val = (i 1).val := by
  unfold DotDims.rhsIdx
  rw [dif_neg (show ¬(1 : Fin S16x1.rank) ∈ dot_S10000x16_S16x1_S10000x1_1_0_0_1_n_n.rhsBatch by decide), dif_pos (show (1 : Fin S16x1.rank) ∈ dot_S10000x16_S16x1_S10000x1_1_0_0_1_n_n.rhsNonContracting by decide)]
  rfl

/-- The body's stored value at an entry of the block: the sum over the shared axis of the staged products. -/
theorem pay_apply (x0 : Vec Ideal S10000x16 .f32) (x1 : Vec Ideal S16x1 .f32) (j : S10000x1.Idx) :
    k3_pay1 x0 x1 j = ∑ k : Fin 16, x0 (blockLeft j k) * x1 (blockRight j k) := by
  unfold k3_pay1
  rw [shapeCast_self]
  refine (Ideal.matmul_constant_zero_apply dot_S10000x16_S16x1_S10000x1_1_0_0_1_n_n none _ _ j).trans ?_
  rw [← Equiv.sum_comp (ValueIdx.contrEquiv1 dot_S10000x16_S16x1_S10000x1_1_0_0_1_n_n 16 rfl rfl).symm]
  refine Finset.sum_congr rfl fun k _ => ?_
  have hk := ValueIdx.contrEquiv1_symm_val dot_S10000x16_S16x1_S10000x1_1_0_0_1_n_n 16 rfl rfl k
  have el : dot_S10000x16_S16x1_S10000x1_1_0_0_1_n_n.lhsIdx j ((ValueIdx.contrEquiv1 dot_S10000x16_S16x1_S10000x1_1_0_0_1_n_n 16 rfl rfl).symm k) = blockLeft j k := funext fun a => Fin.ext (by
    match a with
    | ⟨0, _⟩ => exact blockDot_lhs0 _ _
    | ⟨1, _⟩ => exact (blockDot_lhs1 _ _).trans hk)
  have er : dot_S10000x16_S16x1_S10000x1_1_0_0_1_n_n.rhsIdx j ((ValueIdx.contrEquiv1 dot_S10000x16_S16x1_S10000x1_1_0_0_1_n_n 16 rfl rfl).symm k) = blockRight j k := funext fun a => Fin.ext (by
    match a with
    | ⟨0, _⟩ => exact (blockDot_rhs0 _ _).trans hk
    | ⟨1, _⟩ => exact blockDot_rhs1 _ _)
  rw [el, er]
  rfl

/-! ## The whole contraction as the same sum -/

/-- The left array's entry in row `i 0`, shared coordinate `k`. -/
abbrev arrayLeft (i : S100000x1.Idx) (k : Fin 16) : S100000x16.Idx := fun a => match a with
  | ⟨0, _⟩ => ⟨(i 0).val, (i 0).isLt⟩
  | ⟨1, _⟩ => ⟨k.val, k.isLt⟩
/-- The weight's entry at shared coordinate `k`, column `i 1`. -/
abbrev arrayRight (i : S100000x1.Idx) (k : Fin 16) : S16x1.Idx := fun a => match a with
  | ⟨0, _⟩ => ⟨k.val, k.isLt⟩
  | ⟨1, _⟩ => ⟨(i 1).val, (i 1).isLt⟩

theorem arrayDot_lhs0 (i : S100000x1.Idx) (q : Cert.ReferenceIdeal.dot_S100000x16_S16x1_S100000x1_1_0_0_1_n_n.contr.Idx) : (Cert.ReferenceIdeal.dot_S100000x16_S16x1_S100000x1_1_0_0_1_n_n.lhsIdx i q 0).val = (i 0).val := by
  unfold DotDims.lhsIdx
  rw [dif_neg (show ¬(0 : Fin S100000x16.rank) ∈ Cert.ReferenceIdeal.dot_S100000x16_S16x1_S100000x1_1_0_0_1_n_n.lhsBatch by decide), dif_pos (show (0 : Fin S100000x16.rank) ∈ Cert.ReferenceIdeal.dot_S100000x16_S16x1_S100000x1_1_0_0_1_n_n.lhsNonContracting by decide)]
  rfl
theorem arrayDot_lhs1 (i : S100000x1.Idx) (q : Cert.ReferenceIdeal.dot_S100000x16_S16x1_S100000x1_1_0_0_1_n_n.contr.Idx) : (Cert.ReferenceIdeal.dot_S100000x16_S16x1_S100000x1_1_0_0_1_n_n.lhsIdx i q 1).val = (q ⟨0, by decide⟩).val :=
  Cert.ReferenceIdeal.dot_S100000x16_S16x1_S100000x1_1_0_0_1_n_n.lhsIdx_val_of_single rfl i q
theorem arrayDot_rhs0 (i : S100000x1.Idx) (q : Cert.ReferenceIdeal.dot_S100000x16_S16x1_S100000x1_1_0_0_1_n_n.contr.Idx) : (Cert.ReferenceIdeal.dot_S100000x16_S16x1_S100000x1_1_0_0_1_n_n.rhsIdx i q 0).val = (q ⟨0, by decide⟩).val :=
  Cert.ReferenceIdeal.dot_S100000x16_S16x1_S100000x1_1_0_0_1_n_n.rhsIdx_val_of_single rfl i q
theorem arrayDot_rhs1 (i : S100000x1.Idx) (q : Cert.ReferenceIdeal.dot_S100000x16_S16x1_S100000x1_1_0_0_1_n_n.contr.Idx) : (Cert.ReferenceIdeal.dot_S100000x16_S16x1_S100000x1_1_0_0_1_n_n.rhsIdx i q 1).val = (i 1).val := by
  unfold DotDims.rhsIdx
  rw [dif_neg (show ¬(1 : Fin S16x1.rank) ∈ Cert.ReferenceIdeal.dot_S100000x16_S16x1_S100000x1_1_0_0_1_n_n.rhsBatch by decide), dif_pos (show (1 : Fin S16x1.rank) ∈ Cert.ReferenceIdeal.dot_S100000x16_S16x1_S100000x1_1_0_0_1_n_n.rhsNonContracting by decide)]
  rfl

/-- An entry of the whole contraction: the sum over the shared axis of the products of the two arrays' entries. -/
theorem product_apply (x : FVec Ideal S100000x16 .f32) (w : FVec Ideal S16x1 .f32) (i : S100000x1.Idx) :
    product2 (F := Ideal) x w i = ∑ k : Fin 16, x (arrayLeft i k) * w (arrayRight i k) := by
  unfold product2
  simp only [Host.dotGeneral]
  rw [Ideal.dotGeneral_apply, ← Equiv.sum_comp (ValueIdx.contrEquiv1 Cert.ReferenceIdeal.dot_S100000x16_S16x1_S100000x1_1_0_0_1_n_n 16 rfl rfl).symm]
  refine Finset.sum_congr rfl fun k _ => ?_
  have hk := ValueIdx.contrEquiv1_symm_val Cert.ReferenceIdeal.dot_S100000x16_S16x1_S100000x1_1_0_0_1_n_n 16 rfl rfl k
  have el : Cert.ReferenceIdeal.dot_S100000x16_S16x1_S100000x1_1_0_0_1_n_n.lhsIdx i ((ValueIdx.contrEquiv1 Cert.ReferenceIdeal.dot_S100000x16_S16x1_S100000x1_1_0_0_1_n_n 16 rfl rfl).symm k) = arrayLeft i k := funext fun a => Fin.ext (by
    match a with
    | ⟨0, _⟩ => exact arrayDot_lhs0 _ _
    | ⟨1, _⟩ => exact (arrayDot_lhs1 _ _).trans hk)
  have er : Cert.ReferenceIdeal.dot_S100000x16_S16x1_S100000x1_1_0_0_1_n_n.rhsIdx i ((ValueIdx.contrEquiv1 Cert.ReferenceIdeal.dot_S100000x16_S16x1_S100000x1_1_0_0_1_n_n 16 rfl rfl).symm k) = arrayRight i k := funext fun a => Fin.ext (by
    match a with
    | ⟨0, _⟩ => exact (arrayDot_rhs0 _ _).trans hk
    | ⟨1, _⟩ => exact arrayDot_rhs1 _ _)
  rw [el, er]

/-! ## From the blocks to the array -/

theorem offsets_zero : (![0, 0] : Fin 2 → Nat) = fun _ => 0 := funext fun a => by fin_cases a <;> rfl

/-- The three index maps, decided over the 10 points: the left and the result windows' block at point `t` is block row
    `t`, block column 0; the weight's block is always the whole weight. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the contraction of the two arrays the region found. -/
theorem flushed_eq (c : Dev nD) (t : Fin cfg3.N) :
    (dat3 V c).flushed 2 t = ((cfg3.win 2).blk t).view.read (Elt Ideal) (product2 (F := Ideal) (V c main_v46) (V c main_arg4)) := by
  show (cfg3.win 2).cut (grid3.coords t) ((dat3 V c).after 2 t) = _
  rw [after3_2]
  unfold out3_2
  rw [View.canon_unit_zero offsets_zero]
  simp only [View.ld_unit_zero (S := S10000x16) offsets_zero, View.ld_unit_zero (S := S16x1) offsets_zero]
  obtain ⟨e0, e1, e2, e3, e4, e5⟩ := block_index t
  funext j
  refine (pay_apply (iblk3 V c 0 t) (iblk3 V c 1 t) j).trans
    (Eq.trans ?_ (product_apply (V c main_v46) (V c main_arg4) (((cfg3.win 2).blk t).view.emb j)).symm)
  refine Finset.sum_congr rfl fun k _ => ?_
  have hL : ((cfg3.win 0).blk t).view.emb (blockLeft j k) = arrayLeft (((cfg3.win 2).blk t).view.emb j) k := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 16 + 1 * k.val = k.val; omega
  have hR : ((cfg3.win 1).blk t).view.emb (blockRight j k) = arrayRight (((cfg3.win 2).blk t).view.emb j) k := by
    funext a; apply Fin.ext
    match a with
    | ⟨0, _⟩ => show win3_1.index t (0 : Fin 2) * 16 + 1 * k.val = k.val; omega
    | ⟨1, _⟩ => show win3_1.index t (1 : Fin 2) * 1 + 1 * (j 1).val = win3_2.index t (1 : Fin 2) * 1 + 1 * (j 1).val; omega
  rw [← hL, ← hR]
  rfl

/-- An entry of the array is in point `t`'s block iff each coordinate is in the block's range. -/
theorem mem_blk (t : Fin cfg3.N) (i : S100000x1.Idx) :
    i ∈ ((cfg3.win 2).blk t).view.set ↔ ∀ a : Fin 2, win3_2.index t a * S10000x1.size a ≤ (i a).val ∧ (i a).val < win3_2.index t a * S10000x1.size a + S10000x1.size a := by
  show i ∈ ((View.whole main_v47).slice (win3_2.rect t)).set ↔ _
  rw [View.set_slice_whole, Rect.mem_set_unit]
  exact Iff.rfl

/-- Row `r` lies in the block of point `r / 10000`: the blocks cover the array. -/
theorem cover (i : S100000x1.Idx) : ∃ t : Fin cfg3.N, (cfg3.win 2).flush t = true ∧ i ∈ ((cfg3.win 2).blk t).view.set := by
  have hi0 : (i 0).val < 100000 := (i 0).isLt
  have hi1 : (i 1).val < 1 := (i 1).isLt
  have hN : grid3.N = 10 := N_3
  let t : Fin cfg3.N := ⟨(i 0).val / 10000, by show (i 0).val / 10000 < grid3.N; omega⟩
  obtain ⟨e0, e1, e2, e3, e4, e5⟩ := block_index t
  have ht : t.val = (i 0).val / 10000 := rfl
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 1 ≤ (i 1).val ∧ (i 1).val < win3_2.index t (1 : Fin 2) * 1 + 1; omega

/-- The array the region leaves, whole: the layer step of the two arrays it found. -/
theorem final (c : Dev nD) : (dat3 V c).arrAt 2 cfg3.N = product2 (F := Ideal) (V c main_v46) (V c main_arg4) :=
  (dat3 V c).arrAt_eq_of_cover 2 (product2 (F := Ideal) (V c main_v46) (V c main_arg4)) (fun t _ => flushed_eq V c t) cover

end Cert.KernelIdeal.Product2

end
-- ==== Proof.ScaleRows1.lean ====
/-
  The second row-scaling region: the same 825 blocks of 4000 rows, now one column wide. Point `t` multiplies each
  gathered entry of its block by the normalisation entry of the same row and writes the block back at the same rows;
  the array the region leaves is the elementwise product of the two arrays it found.
-/
import proofs.«101587_j19602230739361_2_alg».proof.Proof.Gen.KernelIdeal.Frame
import proofs.«101587_j19602230739361_2_alg».proof.Proof.Layers
import Idealize.ShloMosaic.Lib.Pipeline.Value
import Idealize.ShloMosaic.Lib.ValueIdx

set_option maxRecDepth 16384

noncomputable section

namespace Cert.KernelIdeal.ScaleRows1

open Cert.KernelIdeal Cert.KernelIdeal.Gen Idealize.ShloMosaic Idealize.ShloMosaic.TcCoe Idealize.SL.Sem
open Idealize.ShloMosaic.Pipeline (Dat)
open Cert.Layers

variable {F : FTy → Type} [FloatOps F]
variable (V : (c : Dev nD) → (b : Ref sig .tc) → Buf (Elt F) ((c : Thread nD τ).loc b))

/-- The body's stored value at an entry of the block: the product of the two staged entries there. -/
theorem pay_apply (x0 : Vec F S4000x1 .f32) (x1 : Vec F S4000x1 .f32) (j : S4000x1.Idx) :
    k4_pay1 x0 x1 j = FloatOps.mulf (x0 j) (x1 j) := by
  unfold k4_pay1
  rw [shapeCast_self, shapeCast_self]
  rfl

theorem offsets_zero : (![0, 0] : Fin 2 → Nat) = fun _ => 0 := funext fun a => by fin_cases a <;> rfl

/-- The three index maps, decided over the 825 points: each window's block at point `t` is block row `t`, block column 0. -/
theorem block_index : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the elementwise product of the two arrays the region found. -/
theorem flushed_eq (c : Dev nD) (t : Fin cfg4.N) :
    (dat4 V c).flushed 2 t = ((cfg4.win 2).blk t).view.read (Elt F) (scaled1 (F := F) (V c main_v54) (V c main_v32)) := by
  show (cfg4.win 2).cut (grid4.coords t) ((dat4 V c).after 2 t) = _
  rw [after4_2]
  unfold out4_2
  rw [View.canon_unit_zero offsets_zero]
  simp only [View.ld_unit_zero (S := S4000x1) offsets_zero]
  obtain ⟨e0, e1, e2, e3, e4, e5⟩ := block_index t
  funext j
  refine (pay_apply (iblk4 V c 0 t) (iblk4 V c 1 t) j).trans ?_
  have hrow0 : ((cfg4.win 0).blk t).view.emb j = ((cfg4.win 2).blk t).view.emb j := by
    funext a; apply Fin.ext
    match a with
    | ⟨0, _⟩ => show win4_0.index t (0 : Fin 2) * 4000 + 1 * (j 0).val = win4_2.index t (0 : Fin 2) * 4000 + 1 * (j 0).val; omega
    | ⟨1, _⟩ => show win4_0.index t (1 : Fin 2) * 1 + 1 * (j 1).val = win4_2.index t (1 : Fin 2) * 1 + 1 * (j 1).val; omega
  have hrow1 : ((cfg4.win 1).blk t).view.emb j = ((cfg4.win 2).blk t).view.emb j := by
    funext a; apply Fin.ext
    match a with
    | ⟨0, _⟩ => show win4_1.index t (0 : Fin 2) * 4000 + 1 * (j 0).val = win4_2.index t (0 : Fin 2) * 4000 + 1 * (j 0).val; omega
    | ⟨1, _⟩ => show win4_1.index t (1 : Fin 2) * 1 + 1 * (j 1).val = win4_2.index t (1 : Fin 2) * 1 + 1 * (j 1).val; omega
  show FloatOps.mulf (V c main_v54 (((cfg4.win 0).blk t).view.emb j)) (V c main_v32 (((cfg4.win 1).blk t).view.emb j))
    = FloatOps.mulf (V c main_v54 (((cfg4.win 2).blk t).view.emb j)) (V c main_v32 (((cfg4.win 2).blk t).view.emb j))
  rw [hrow0, hrow1]

/-- An entry of the array is in point `t`'s block iff each coordinate is in the block's range. -/
theorem mem_blk (t : Fin cfg4.N) (i : S3300000x1.Idx) :
    i ∈ ((cfg4.win 2).blk t).view.set ↔ ∀ a : Fin 2, win4_2.index t a * S4000x1.size a ≤ (i a).val ∧ (i a).val < win4_2.index t a * S4000x1.size a + S4000x1.size a := by
  show i ∈ ((View.whole main_v55).slice (win4_2.rect t)).set ↔ _
  rw [View.set_slice_whole, Rect.mem_set_unit]
  exact Iff.rfl

/-- Row `r` lies in the block of point `r / 4000`: the blocks cover the array. -/
theorem cover (i : S3300000x1.Idx) : ∃ t : Fin cfg4.N, (cfg4.win 2).flush t = true ∧ i ∈ ((cfg4.win 2).blk t).view.set := by
  have hi0 : (i 0).val < 3300000 := (i 0).isLt
  have hi1 : (i 1).val < 1 := (i 1).isLt
  have hN : grid4.N = 825 := N_4
  let t : Fin cfg4.N := ⟨(i 0).val / 4000, by show (i 0).val / 4000 < grid4.N; omega⟩
  obtain ⟨e0, e1, e2, e3, e4, e5⟩ := block_index t
  have ht : t.val = (i 0).val / 4000 := rfl
  refine ⟨t, flush4_2 t, ?_⟩
  rw [mem_blk]
  intro a
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 1 ≤ (i 1).val ∧ (i 1).val < win4_2.index t (1 : Fin 2) * 1 + 1; omega

/-- The array the region leaves, whole: the layer step of the two arrays it found. -/
theorem final (c : Dev nD) : (dat4 V c).arrAt 2 cfg4.N = scaled1 (F := F) (V c main_v54) (V c main_v32) :=
  (dat4 V c).arrAt_eq_of_cover 2 (scaled1 (F := F) (V c main_v54) (V c main_v32)) (fun t _ => flushed_eq V c t) cover

end Cert.KernelIdeal.ScaleRows1

end
-- ==== Proof.Bias1.lean ====
/-
  The second layer's bias addition.
  The grid has 10 points; point `t` stages rows `10000·t … 10000·t + 9999` of the aggregated array (1 column) and the
  whole 1 × 1 bias row, adds the bias row to every row of the block and writes the block back at
  the same rows. Every row lies in exactly one block, so the array the region leaves is one function of the two arrays
  it found: entry `(r, q)` is `a[r, q] + b[0, q]`, which is how the reference writes it (the bias row broadcast
  along the first axis, an elementwise sum).
-/
import proofs.«101587_j19602230739361_2_alg».proof.Proof.Gen.KernelIdeal.Frame
import proofs.«101587_j19602230739361_2_alg».proof.Proof.Layers
import Idealize.ShloMosaic.Lib.Pipeline.Value
import Idealize.ShloMosaic.Lib.ValueIdx

set_option maxRecDepth 16384

noncomputable section

namespace Cert.KernelIdeal.Bias1

open Cert.KernelIdeal Cert.KernelIdeal.Gen Idealize.ShloMosaic Idealize.ShloMosaic.TcCoe Idealize.SL.Sem
open Idealize.ShloMosaic.Pipeline (Dat)
open Cert.Layers

variable {F : FTy → Type} [FloatOps F]
variable (V : (c : Dev nD) → (b : Ref sig .tc) → Buf (Elt F) ((c : Thread nD τ).loc b))

/-- An entry of the layer step: the aggregated entry plus the bias entry of the same column. -/
theorem step_apply (a : FVec F S100000x1 .f32) (b : FVec F S1x1 .f32) (i : S100000x1.Idx) (k : S1x1.Idx)
    (h0 : (k 0).val = 0) (h1 : (k 1).val = 0) :
    bias1 (F := F) a b i = FloatOps.addf (a i) (b k) := by
  unfold bias1
  show FloatOps.addf (a i) (broadcastInDim S100000x1 ![0, 1] Cert.ReferenceIdeal.Facts₀.bcast_S1x1_S100000x1_0_1 b i) = _
  rw [broadcastInDim_apply ![0, 1] Cert.ReferenceIdeal.Facts₀.bcast_S1x1_S100000x1_0_1 b i k (fun a => by
    match a with
    | ⟨0, _⟩ => exact h0
    | ⟨1, _⟩ => exact h1)]

/-- The body's stored value at an entry of the block: the staged entry plus the staged bias entry of the same column. -/
theorem pay_apply (x0 : Vec F S10000x1 .f32) (x1 : Vec F S1x1 .f32) (j : S10000x1.Idx) (k : S1x1.Idx)
    (h0 : (k 0).val = 0) (h1 : (k 1).val = 0) :
    k5_pay1 x0 x1 j = FloatOps.addf (x0 j) (x1 k) := by
  unfold k5_pay1
  rw [shapeCast_self, shapeCast_self]
  show FloatOps.addf (x0 j) (broadcastTo S10000x1 x1 Facts₀.broadcasts_S1x1_S10000x1 j) = _
  rw [broadcastTo_apply x1 Facts₀.broadcasts_S1x1_S10000x1 j k (fun a => by
    match a with
    | ⟨0, _⟩ => exact h0
    | ⟨1, _⟩ => exact h1)]

theorem offsets_zero : (![0, 0] : Fin 2 → Nat) = fun _ => 0 := funext fun a => by fin_cases a <;> rfl

/-- The three index maps, decided over the 10 points: the aggregated and the result windows' block at point `t` is block
    row `t`, block column 0; the bias row's block is always the whole row. -/
theorem block_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the layer step of the two arrays the region found. -/
theorem flushed_eq (c : Dev nD) (t : Fin cfg5.N) :
    (dat5 V c).flushed 2 t = ((cfg5.win 2).blk t).view.read (Elt F) (bias1 (F := F) (V c main_v58) (V c main_v59)) := by
  show (cfg5.win 2).cut (grid5.coords t) ((dat5 V c).after 2 t) = _
  rw [after5_2]
  unfold out5_2
  rw [View.canon_unit_zero offsets_zero]
  simp only [View.ld_unit_zero (S := S10000x1) offsets_zero, View.ld_unit_zero (S := S1x1) offsets_zero]
  obtain ⟨e0, e1, e2, e3, e4, e5⟩ := block_index t
  funext j
  have hj1 : (j 1).val < 1 := (j 1).isLt
  let kb : S1x1.Idx := ValueIdx.ix2 (⟨0, by decide⟩ : Fin 1) (⟨(j 1).val, hj1⟩ : Fin 1)
  have hkb0 : (kb 0).val = 0 := rfl
  have hkb1 : (kb 1).val = (j 1).val := rfl
  refine (pay_apply (iblk5 V c 0 t) (iblk5 V c 1 t) j kb hkb0 (by omega)).trans ?_
  have hrow : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 1 + 1 * (j 1).val = win5_2.index t (1 : Fin 2) * 1 + 1 * (j 1).val; omega
  have hc0 : ((((cfg5.win 1).blk t).view.emb kb) 0).val = 0 := by
    show win5_1.index t (0 : Fin 2) * 1 + 1 * (kb 0).val = 0; omega
  have hc1 : ((((cfg5.win 1).blk t).view.emb kb) 1).val = 0 := by
    show win5_1.index t (1 : Fin 2) * 1 + 1 * (kb 1).val = 0; omega
  show FloatOps.addf (V c main_v58 (((cfg5.win 0).blk t).view.emb j)) (V c main_v59 (((cfg5.win 1).blk t).view.emb kb))
    = bias1 (F := F) (V c main_v58) (V c main_v59) (((cfg5.win 2).blk t).view.emb j)
  rw [step_apply (V c main_v58) (V c main_v59) (((cfg5.win 2).blk t).view.emb j) (((cfg5.win 1).blk t).view.emb kb) hc0 hc1, hrow]

/-- An entry of the array is in point `t`'s block iff each coordinate is in the block's range. -/
theorem mem_blk (t : Fin cfg5.N) (i : S100000x1.Idx) :
    i ∈ ((cfg5.win 2).blk t).view.set ↔ ∀ a : Fin 2, win5_2.index t a * S10000x1.size a ≤ (i a).val ∧ (i a).val < win5_2.index t a * S10000x1.size a + S10000x1.size a := by
  show i ∈ ((View.whole main_v60).slice (win5_2.rect t)).set ↔ _
  rw [View.set_slice_whole, Rect.mem_set_unit]
  exact Iff.rfl

/-- Row `r` lies in the block of point `r / 10000`: the blocks cover the array. -/
theorem cover (i : S100000x1.Idx) : ∃ t : Fin cfg5.N, (cfg5.win 2).flush t = true ∧ i ∈ ((cfg5.win 2).blk t).view.set := by
  have hi0 : (i 0).val < 100000 := (i 0).isLt
  have hi1 : (i 1).val < 1 := (i 1).isLt
  have hN : grid5.N = 10 := N_5
  let t : Fin cfg5.N := ⟨(i 0).val / 10000, by show (i 0).val / 10000 < grid5.N; omega⟩
  obtain ⟨e0, e1, e2, e3, e4, e5⟩ := block_index t
  have ht : t.val = (i 0).val / 10000 := rfl
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 1 ≤ (i 1).val ∧ (i 1).val < win5_2.index t (1 : Fin 2) * 1 + 1; omega

/-- The array the region leaves, whole: the layer step of the two arrays it found. -/
theorem final (c : Dev nD) : (dat5 V c).arrAt 2 cfg5.N = bias1 (F := F) (V c main_v58) (V c main_v59) :=
  (dat5 V c).arrAt_eq_of_cover 2 (bias1 (F := F) (V c main_v58) (V c main_v59)) (fun t _ => flushed_eq V c t) cover

end Cert.KernelIdeal.Bias1

end
-- ==== Proof.Fold.lean ====
/-
  What the idealized kernel's result array holds at the end, as one term of the six arguments — and that this term is
  the reference's.

  The run's last boundary `W13` is a fold: the launch contents, then a stretch of host operations, then a region, and so
  on thirteen times. A host operation rewrites its one result buffer to its function of its operand buffers and leaves
  every other buffer alone. A region does the same at the scale of arrays: its result array ends at the layer step
  (Layers) of its two input arrays — that is the block-by-block modules' `final` — and every other buffer is as it was.
  So the fold can be read from the result buffer backwards, one operation at a time, down to the argument buffers; what
  comes out is the composition, in program order, of the host operations' functions and the six layer steps.

  The reference is the same composition with each layer step spelt as one host operation (which is how Layers states
  them), with three reshapes to a unit axis spelt as broadcasts (Reshapes), and with the normalisation recomputed for
  the second layer from the same indices by the same operations. After those three rewritings the two terms agree
  operation by operation.
-/
import proofs.«101587_j19602230739361_2_alg».proof.Proof.Gen.KernelIdeal.Frame
import proofs.«101587_j19602230739361_2_alg».proof.Proof.Layers
import proofs.«101587_j19602230739361_2_alg».proof.Proof.Reshapes
import proofs.«101587_j19602230739361_2_alg».proof.Proof.Product1
import proofs.«101587_j19602230739361_2_alg».proof.Proof.ScaleRows16
import proofs.«101587_j19602230739361_2_alg».proof.Proof.BiasRelu16
import proofs.«101587_j19602230739361_2_alg».proof.Proof.Product2
import proofs.«101587_j19602230739361_2_alg».proof.Proof.ScaleRows1
import proofs.«101587_j19602230739361_2_alg».proof.Proof.Bias1
import proofs.«101587_j19602230739361_2_alg».proof.Proof.RefRun
import Idealize.ShloMosaic.Lib.StableHlo.Run
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)
open Cert.Layers

variable (m : (ℓ : Loc nD τ sig) → Buf (Elt Ideal) ℓ) (ρ : Dev nD → PrngReg)

/-! ## A region leaves every buffer but its result as it found it -/

/-- Every buffer other than region 0's result leaves the region as it entered it: the two input arrays are only read, the
    rest is not touched. -/
theorem W4_ne (c : Dev nD) {r : Ref sig .tc} (h : r ≠ main_v33) :
    W4 m ρ c (no_index (Proc.devRef .tc r)) = W3 m ρ c (Proc.devRef .tc r) := by
  by_cases h0 : r = main_arg0
  · subst h0; exact (W4_arr m ρ c 0).trans (((dat0 (V3 m ρ) c).arrAt_in 0 rfl _).trans (A_eq0 (V3 m ρ) c 0))
  by_cases h1 : r = main_arg2
  · subst h1; exact (W4_arr m ρ c 1).trans (((dat0 (V3 m ρ) c).arrAt_in 1 rfl _).trans (A_eq0 (V3 m ρ) c 1))
  exact W4_of_ne m ρ c r (fun w => by
    match w with
    | ⟨0, _⟩ => exact fun e => h0 e.symm
    | ⟨1, _⟩ => exact fun e => h1 e.symm
    | ⟨2, _⟩ => exact fun e => h e.symm)

/-- Every buffer other than region 1's result leaves the region as it entered it: the two input arrays are only read, the
    rest is not touched. -/
theorem W6_ne (c : Dev nD) {r : Ref sig .tc} (h : r ≠ main_v41) :
    W6 m ρ c (no_index (Proc.devRef .tc r)) = W5 m ρ c (Proc.devRef .tc r) := by
  by_cases h0 : r = main_v40
  · subst h0; exact (W6_arr m ρ c 0).trans (((dat1 (V5 m ρ) c).arrAt_in 0 rfl _).trans (A_eq1 (V5 m ρ) c 0))
  by_cases h1 : r = main_v32
  · subst h1; exact (W6_arr m ρ c 1).trans (((dat1 (V5 m ρ) c).arrAt_in 1 rfl _).trans (A_eq1 (V5 m ρ) c 1))
  exact W6_of_ne m ρ c r (fun w => by
    match w with
    | ⟨0, _⟩ => exact fun e => h0 e.symm
    | ⟨1, _⟩ => exact fun e => h1 e.symm
    | ⟨2, _⟩ => exact fun e => h e.symm)

/-- Every buffer other than region 2's result leaves the region as it entered it: the two input arrays are only read, the
    rest is not touched. -/
theorem W8_ne (c : Dev nD) {r : Ref sig .tc} (h : r ≠ main_v46) :
    W8 m ρ c (no_index (Proc.devRef .tc r)) = W7 m ρ c (Proc.devRef .tc r) := by
  by_cases h0 : r = main_v44
  · subst h0; exact (W8_arr m ρ c 0).trans (((dat2 (V7 m ρ) c).arrAt_in 0 rfl _).trans (A_eq2 (V7 m ρ) c 0))
  by_cases h1 : r = main_v45
  · subst h1; exact (W8_arr m ρ c 1).trans (((dat2 (V7 m ρ) c).arrAt_in 1 rfl _).trans (A_eq2 (V7 m ρ) c 1))
  exact W8_of_ne m ρ c r (fun w => by
    match w with
    | ⟨0, _⟩ => exact fun e => h0 e.symm
    | ⟨1, _⟩ => exact fun e => h1 e.symm
    | ⟨2, _⟩ => exact fun e => h e.symm)

/-- Every buffer other than region 3's result leaves the region as it entered it: the two input arrays are only read, the
    rest is not touched. -/
theorem W9_ne (c : Dev nD) {r : Ref sig .tc} (h : r ≠ main_v47) :
    W9 m ρ c (no_index (Proc.devRef .tc r)) = W8 m ρ c (Proc.devRef .tc r) := by
  by_cases h0 : r = main_v46
  · subst h0; exact (W9_arr m ρ c 0).trans (((dat3 (V8 m ρ) c).arrAt_in 0 rfl _).trans (A_eq3 (V8 m ρ) c 0))
  by_cases h1 : r = main_arg4
  · subst h1; exact (W9_arr m ρ c 1).trans (((dat3 (V8 m ρ) c).arrAt_in 1 rfl _).trans (A_eq3 (V8 m ρ) c 1))
  exact W9_of_ne m ρ c r (fun w => by
    match w with
    | ⟨0, _⟩ => exact fun e => h0 e.symm
    | ⟨1, _⟩ => exact fun e => h1 e.symm
    | ⟨2, _⟩ => exact fun e => h e.symm)

/-- Every buffer other than region 4's result leaves the region as it entered it: the two input arrays are only read, the
    rest is not touched. -/
theorem W11_ne (c : Dev nD) {r : Ref sig .tc} (h : r ≠ main_v55) :
    W11 m ρ c (no_index (Proc.devRef .tc r)) = W10 m ρ c (Proc.devRef .tc r) := by
  by_cases h0 : r = main_v54
  · subst h0; exact (W11_arr m ρ c 0).trans (((dat4 (V10 m ρ) c).arrAt_in 0 rfl _).trans (A_eq4 (V10 m ρ) c 0))
  by_cases h1 : r = main_v32
  · subst h1; exact (W11_arr m ρ c 1).trans (((dat4 (V10 m ρ) c).arrAt_in 1 rfl _).trans (A_eq4 (V10 m ρ) c 1))
  exact W11_of_ne m ρ c r (fun w => by
    match w with
    | ⟨0, _⟩ => exact fun e => h0 e.symm
    | ⟨1, _⟩ => exact fun e => h1 e.symm
    | ⟨2, _⟩ => exact fun e => h e.symm)

/-- Every buffer other than region 5's result leaves the region as it entered it: the two input arrays are only read, the
    rest is not touched. -/
theorem W13_ne (c : Dev nD) {r : Ref sig .tc} (h : r ≠ main_v60) :
    W13 m ρ c (no_index (Proc.devRef .tc r)) = W12 m ρ c (Proc.devRef .tc r) := by
  by_cases h0 : r = main_v58
  · subst h0; exact (W13_arr m ρ c 0).trans (((dat5 (V12 m ρ) c).arrAt_in 0 rfl _).trans (A_eq5 (V12 m ρ) c 0))
  by_cases h1 : r = main_v59
  · subst h1; exact (W13_arr m ρ c 1).trans (((dat5 (V12 m ρ) c).arrAt_in 1 rfl _).trans (A_eq5 (V12 m ρ) c 1))
  exact W13_of_ne m ρ c r (fun w => by
    match w with
    | ⟨0, _⟩ => exact fun e => h0 e.symm
    | ⟨1, _⟩ => exact fun e => h1 e.symm
    | ⟨2, _⟩ => exact fun e => h e.symm)

/-! ## The three reshaped operands, read back to the vector they reshape -/

/-- The normalisation column at the first stretch's end is the broadcast, along a new second axis, of the vector of
    products `dinv[src] · dinv[dst]` that the stretch computed just before it. -/
theorem norm_at3 (c : Dev nD) : W3 m ρ c (Proc.devRef .tc main_v32)
    = broadcastInDim Cert.ReferenceIdeal.S3300000x1 ![0] Cert.ReferenceIdeal.Facts₀.bcast_S3300000_S3300000x1_0 (W3 m ρ c (Proc.devRef .tc main_v31)) := by
  have h : W3 m ρ c (Proc.devRef .tc main_v32)
      = shapeCast S3300000x1 (W3 m ρ c (Proc.devRef .tc main_v31)) Facts₀.shapeCasts_S3300000_S3300000x1 := by
    simp (disch := decide) only [W3, hostOps0_2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
    rfl
  rw [h]; exact Cert.Reshapes.column _

/-- Nothing between the first stretch and the first scaling region writes the normalisation column. -/
theorem norm_at5 (c : Dev nD) : W5 m ρ c (Proc.devRef .tc main_v32)
    = broadcastInDim Cert.ReferenceIdeal.S3300000x1 ![0] Cert.ReferenceIdeal.Facts₀.bcast_S3300000_S3300000x1_0 (W3 m ρ c (Proc.devRef .tc main_v31)) := by
  have h : W5 m ρ c (Proc.devRef .tc main_v32) = W3 m ρ c (Proc.devRef .tc main_v32) := by
    simp (disch := decide) only [W5, W4_ne, hostOps1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rw [h]; exact norm_at3 m ρ c

/-- Nor does anything up to the second scaling region. -/
theorem norm_at10 (c : Dev nD) : W10 m ρ c (Proc.devRef .tc main_v32)
    = broadcastInDim Cert.ReferenceIdeal.S3300000x1 ![0] Cert.ReferenceIdeal.Facts₀.bcast_S3300000_S3300000x1_0 (W3 m ρ c (Proc.devRef .tc main_v31)) := by
  have h : W10 m ρ c (Proc.devRef .tc main_v32) = W3 m ρ c (Proc.devRef .tc main_v32) := by
    simp (disch := decide) only [W10, W9_ne, W8_ne, W7, W6_ne, W5, W4_ne, hostOps4, hostOps2, hostOps1, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  rw [h]; exact norm_at3 m ρ c

/-- The first layer's bias row, as its region finds it, is the bias vector broadcast along a new first axis. -/
theorem bias_at7 (c : Dev nD) : W7 m ρ c (Proc.devRef .tc main_v45)
    = broadcastInDim Cert.ReferenceIdeal.S1x16 ![1] Cert.ReferenceIdeal.Facts₀.bcast_S16_S1x16_1 (W6 m ρ c (Proc.devRef .tc main_arg3)) := by
  have h : W7 m ρ c (Proc.devRef .tc main_v45)
      = shapeCast S1x16 (W6 m ρ c (Proc.devRef .tc main_arg3)) Facts₀.shapeCasts_S16_S1x16 := by
    simp (disch := decide) only [W7, hostOps2, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
    rfl
  rw [h]; exact Cert.Reshapes.row16 _

/-- The second layer's bias entry, as its region finds it, is the one-entry bias vector broadcast along a new first axis. -/
theorem bias_at12 (c : Dev nD) : W12 m ρ c (Proc.devRef .tc main_v59)
    = broadcastInDim Cert.ReferenceIdeal.S1x1 ![1] Cert.ReferenceIdeal.Facts₀.bcast_S1_S1x1_1 (W11 m ρ c (Proc.devRef .tc main_arg5)) := by
  have h : W12 m ρ c (Proc.devRef .tc main_v59)
      = shapeCast S1x1 (W11 m ρ c (Proc.devRef .tc main_arg5)) Facts₀.shapeCasts_S1_S1x1 := by
    simp (disch := decide) only [W12, hostOps5, after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
    rfl
  rw [h]; exact Cert.Reshapes.row1 _

/-! ## Each region's result array, at its exit -/

/-- Region 0: the first dense product of the feature array and the first weight. -/
theorem W4_out (c : Dev nD) : W4 m ρ c (no_index (Proc.devRef .tc main_v33))
    = product1 (F := Ideal) (W3 m ρ c (Proc.devRef .tc main_arg0)) (W3 m ρ c (Proc.devRef .tc main_arg2)) :=
  (W4_arr m ρ c 2).trans (Cert.KernelIdeal.Product1.final (V3 m ρ) c)

/-- Region 1: the gathered rows, each scaled by its normalisation entry. -/
theorem W6_out (c : Dev nD) : W6 m ρ c (no_index (Proc.devRef .tc main_v41))
    = scaled16 (F := Ideal) (W5 m ρ c (Proc.devRef .tc main_v40))
        (broadcastInDim Cert.ReferenceIdeal.S3300000x1 ![0] Cert.ReferenceIdeal.Facts₀.bcast_S3300000_S3300000x1_0 (W3 m ρ c (Proc.devRef .tc main_v31))) :=
  ((W6_arr m ρ c 2).trans (Cert.KernelIdeal.ScaleRows16.final (V5 m ρ) c)).trans
    (congrArg (scaled16 (F := Ideal) (W5 m ρ c (Proc.devRef .tc main_v40))) (norm_at5 m ρ c))

/-- Region 2: the aggregated rows plus the bias row, capped below by zero. -/
theorem W8_out (c : Dev nD) : W8 m ρ c (no_index (Proc.devRef .tc main_v46))
    = biasRelu16 (F := Ideal) (W7 m ρ c (Proc.devRef .tc main_v44))
        (broadcastInDim Cert.ReferenceIdeal.S1x16 ![1] Cert.ReferenceIdeal.Facts₀.bcast_S16_S1x16_1 (W6 m ρ c (Proc.devRef .tc main_arg3))) :=
  ((W8_arr m ρ c 2).trans (Cert.KernelIdeal.BiasRelu16.final (V7 m ρ) c)).trans
    (congrArg (biasRelu16 (F := Ideal) (W7 m ρ c (Proc.devRef .tc main_v44))) (bias_at7 m ρ c))

/-- Region 3: the second dense product, of the first layer's output and the second weight. -/
theorem W9_out (c : Dev nD) : W9 m ρ c (no_index (Proc.devRef .tc main_v47))
    = product2 (F := Ideal) (W8 m ρ c (Proc.devRef .tc main_v46)) (W8 m ρ c (Proc.devRef .tc main_arg4)) :=
  (W9_arr m ρ c 2).trans (Cert.KernelIdeal.Product2.final (V8 m ρ) c)

/-- Region 4: the gathered entries, each scaled by its normalisation entry. -/
theorem W11_out (c : Dev nD) : W11 m ρ c (no_index (Proc.devRef .tc main_v55))
    = scaled1 (F := Ideal) (W10 m ρ c (Proc.devRef .tc main_v54))
        (broadcastInDim Cert.ReferenceIdeal.S3300000x1 ![0] Cert.ReferenceIdeal.Facts₀.bcast_S3300000_S3300000x1_0 (W3 m ρ c (Proc.devRef .tc main_v31))) :=
  ((W11_arr m ρ c 2).trans (Cert.KernelIdeal.ScaleRows1.final (V10 m ρ) c)).trans
    (congrArg (scaled1 (F := Ideal) (W10 m ρ c (Proc.devRef .tc main_v54))) (norm_at10 m ρ c))

/-- Region 5: the aggregated entries plus the bias entry. -/
theorem W13_out (c : Dev nD) : W13 m ρ c (no_index (Proc.devRef .tc main_v60))
    = bias1 (F := Ideal) (W12 m ρ c (Proc.devRef .tc main_v58))
        (broadcastInDim Cert.ReferenceIdeal.S1x1 ![1] Cert.ReferenceIdeal.Facts₀.bcast_S1_S1x1_1 (W11 m ρ c (Proc.devRef .tc main_arg5))) :=
  ((W13_arr m ρ c 2).trans (Cert.KernelIdeal.Bias1.final (V12 m ρ) c)).trans
    (congrArg (bias1 (F := Ideal) (W12 m ρ c (Proc.devRef .tc main_v58))) (bias_at12 m ρ c))

/-! ## The outlined selection and the two index reshapes, read without transports

The operations of the outlined `where` are stated over typed references, whose results carry a transport along the
buffer's type equation, and a reshape's result one along the element type's; on these literal buffers each transport is
the identity, so each result is the plain function of the operands. -/

theorem where_zero (Fv : Valuation τ sig (Elt Ideal)) :
    (StableHlo.TRef.unary (.of main_cst_3 : StableHlo.TRef sig ⟨S_, .f32⟩) (.of main_call0_v0 : StableHlo.TRef sig ⟨S_, .f32⟩) id
        : HloOp τ sig (Elt Ideal)).result Fv (no_index (Proc.devRef .tc main_call0_v0))
      = id (Fv (Proc.devRef .tc main_cst_3)) :=
  (unary_result' _ _ _ Fv).trans rfl

theorem where_splat (Fv : Valuation τ sig (Elt Ideal)) :
    (StableHlo.TRef.unary (.of main_call0_v0 : StableHlo.TRef sig ⟨S_, .f32⟩) (.of main_call0_v1 : StableHlo.TRef sig ⟨S100000, .f32⟩)
        (broadcastInDim S100000 ![] Facts₀.bcast_S_S100000) : HloOp τ sig (Elt Ideal)).result Fv (no_index (Proc.devRef .tc main_call0_v1))
      = broadcastInDim S100000 ![] Facts₀.bcast_S_S100000 (Fv (Proc.devRef .tc main_call0_v0)) :=
  (unary_result' _ _ _ Fv).trans rfl

theorem where_select (Fv : Valuation τ sig (Elt Ideal)) :
    (StableHlo.TRef.ternary (.of main_v12 : StableHlo.TRef sig ⟨S100000, .i1⟩) (.of main_v15 : StableHlo.TRef sig ⟨S100000, .f32⟩)
        (.of main_call0_v1 : StableHlo.TRef sig ⟨S100000, .f32⟩) (.of main_v16 : StableHlo.TRef sig ⟨S100000, .f32⟩) select
        : HloOp τ sig (Elt Ideal)).result Fv (no_index (Proc.devRef .tc main_v16))
      = select (Fv (Proc.devRef .tc main_v12)) (Fv (Proc.devRef .tc main_v15)) (Fv (Proc.devRef .tc main_call0_v1)) :=
  (ternary_result' _ _ _ _ _ Fv).trans rfl

theorem reshape_src (Fv : Valuation τ sig (Elt Ideal)) :
    (StableHlo.reshape main_v1 main_v2 rfl Facts₀.shapeCasts_S1x3200000_S3200000 : HloOp τ sig (Elt Ideal)).result Fv (Proc.devRef .tc main_v2)
      = shapeCast S3200000 (Fv (Proc.devRef .tc main_v1)) Facts₀.shapeCasts_S1x3200000_S3200000 :=
  (reshape_result _ _ _ _ _ _ Fv).trans rfl

theorem reshape_dst (Fv : Valuation τ sig (Elt Ideal)) :
    (StableHlo.reshape main_v4 main_v5 rfl Facts₀.shapeCasts_S1x3200000_S3200000 : HloOp τ sig (Elt Ideal)).result Fv (Proc.devRef .tc main_v5)
      = shapeCast S3200000 (Fv (Proc.devRef .tc main_v4)) Facts₀.shapeCasts_S1x3200000_S3200000 :=
  (reshape_result _ _ _ _ _ _ Fv).trans rfl

/-! ## The fold read back, and the reference's term -/

set_option maxRecDepth 20000 in
set_option maxHeartbeats 8000000 in
/-- The last boundary at the result's buffer is the reference's result term at the same arguments. -/
theorem folded (m' : (ℓ : Loc Cert.ReferenceIdeal.nD Cert.ReferenceIdeal.τ Cert.ReferenceIdeal.sig) → Buf (Elt Ideal) ℓ)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5))
    (c : Dev nD) :
    W13 m ρ c (Proc.devRef .tc main_v60) = Cert.ReferenceIdeal.ValueP.res_main_v97 (F := Ideal) m' c := by
  simp (disch := decide) only [↓where_zero, ↓where_splat, ↓where_select, W13_out, W13_ne, W12, W11_out, W11_ne, W10, W9_out, W9_ne, W8_out, W8_ne, W7, W6_out, W6_ne, W5,
    W4_out, W4_ne, W3, W2, W1, hostOps5, hostOps4, hostOps2, hostOps1, hostOps0_2, hostOps0_1, hostOps0,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne']
  repeat (first
    | rw [reshape_src] | rw [reshape_dst]
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  unfold Cert.ReferenceIdeal.ValueP.res_main_v97
  rw [(hagree c).1, (hagree c).2.1, (hagree c).2.2.1, (hagree c).2.2.2.1, (hagree c).2.2.2.2.1, (hagree c).2.2.2.2.2]
  rfl

end Cert.KernelIdeal.Fold

end
-- ==== Proof.lean ====
/-
  The certificate of a two-layer graph convolution: a kernel of six pipelined regions (per layer: a dense product on the
  matrix unit, a row scaling, a bias addition — the first layer's followed by the maximum with zero) among host gathers
  and scatter-additions, against a reference that computes the same two layers by host operations only.

  At the extended reals the two programs compute one function of the six arguments. Each region's result array is one
  whole-array function of its two input arrays (the block-by-block modules): the contraction `x · W`, the product of
  every row with its normalisation entry, the sum with the bias row. These are exactly the reference's host operations at
  the same places, and everything between them — the self-loop indices, the degree count by scatter-addition, the
  inverse square root, the gathers and the aggregating scatter-additions — is the same operation in both programs, so it
  is never opened: the kernel's result term, read back through its thirteen segments, and the reference's result term
  agree operation by operation (Fold). No law of arithmetic is used, so the inputs' finiteness is not needed.

  The three frames: the two kernel programs' are the generated frame certificates; the reference's is its run with the
  result dropped. The idealization rewrote nothing, so `preserves` is trivial.
-/
import proofs.«101587_j19602230739361_2_alg».proof.Defs
import proofs.«101587_j19602230739361_2_alg».proof.Proof.Gen.Kernel
import proofs.«101587_j19602230739361_2_alg».proof.Proof.Gen.Kernel.Skeleton
import proofs.«101587_j19602230739361_2_alg».proof.Proof.Gen.Kernel.Launch
import proofs.«101587_j19602230739361_2_alg».proof.Proof.Gen.Kernel.Points
import proofs.«101587_j19602230739361_2_alg».proof.Proof.Gen.Kernel.Frame
import proofs.«101587_j19602230739361_2_alg».proof.Proof.Gen.KernelIdeal
import proofs.«101587_j19602230739361_2_alg».proof.Proof.Gen.KernelIdeal.Skeleton
import proofs.«101587_j19602230739361_2_alg».proof.Proof.Gen.KernelIdeal.Launch
import proofs.«101587_j19602230739361_2_alg».proof.Proof.Gen.KernelIdeal.Points
import proofs.«101587_j19602230739361_2_alg».proof.Proof.Gen.KernelIdeal.Frame
import proofs.«101587_j19602230739361_2_alg».proof.Proof.Gen.ReferenceIdeal
import proofs.«101587_j19602230739361_2_alg».proof.Proof.Gen.Pre_finite_inputs
import proofs.«101587_j19602230739361_2_alg».proof.Proof.RefRun
import proofs.«101587_j19602230739361_2_alg».proof.Proof.KernelRun
import proofs.«101587_j19602230739361_2_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs run; the kernel's result array ends at its last boundary's contents, the reference's at its result
    term, and the two are one term of arguments that agree. -/
theorem algebraic : Cert.algebraic_KernelIdeal_ReferenceIdeal := by
  intro m ρ m' ρ' _ hagree
  refine ⟨fun c => Cert.KernelIdeal.Gen.W13 m ρ c (Proc.devRef .tc Cert.KernelIdeal.main_v60),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  exact (Cert.KernelIdeal.Fold.folded m ρ m' hagree c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
